-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x512 : Shape := ⟨2, ![1024, 512]⟩
abbrev S512 : Shape := ⟨1, ![512]⟩
abbrev S512x92 : Shape := ⟨2, ![512, 92]⟩
abbrev S92 : Shape := ⟨1, ![92]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x92 : S_.BroadcastsInDim S512x92 (![] : Fin 0 → Fin S512x92.rank)
  reducesTo_S512x92_S_d0_1 : S512x92.ReducesTo [0, 1] S_
  bcast_S_S92 : S_.BroadcastsInDim S92 (![] : Fin 0 → Fin S92.rank)
  reducesTo_S92_S_d0 : S92.ReducesTo [0] S_

variable [Facts]

def fn_part1 {F : FTy → Type} [FloatOps F] (main_arg4 : FVec F S92 .f32) (main_v13 : IVec S_ 1) (main_v16 : IVec S512x92 1) : IVec S_ 1 :=
  let main_c_5 : IVec S_ 1 := constantI S_ 1 1#1
  let main_v17 : IVec S_ 1 := (fun x v => Host.reduce IntOp.andi x v reducesTo_S512x92_S_d0_1 h_S_) main_v16 main_c_5
  let main_v18 : IVec S_ 1 := andi main_v13 main_v17
  let main_v19 : FVec F S92 .f32 := Host.absf main_arg4
  let main_cst_6 : FVec F S_ .f32 := constant S_ .f32 0x7F800000#32
  let main_v20 : FVec F S92 .f32 := broadcastInDim S92 ![] bcast_S_S92 main_cst_6
  let main_v21 : IVec S92 1 := cmpf .olt main_v19 main_v20
  let main_c_7 : IVec S_ 1 := constantI S_ 1 1#1
  let main_v22 : IVec S_ 1 := (fun x v => Host.reduce IntOp.andi x v reducesTo_S92_S_d0 h_S_) main_v21 main_c_7
  let main_v23 : IVec S_ 1 := andi main_v18 main_v22
  main_v23

def fn {F : FTy → Type} [FloatOps F] (main_arg0 : FVec F S32768x1024 .f32) (main_arg1 : FVec F S1024x512 .f32) (main_arg2 : FVec F S512 .f32) (main_arg3 : FVec F S512x92 .f32) (main_arg4 : FVec F S92 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x92 .f32 := Host.absf main_arg3
  let main_cst_4 : FVec F S_ .f32 := constant S_ .f32 0x7F800000#32
  let main_v15 : FVec F S512x92 .f32 := broadcastInDim S512x92 ![] bcast_S_S512x92 main_cst_4
  let main_v16 : IVec S512x92 1 := cmpf .olt main_v14 main_v15
  fn_part1 (F := F) main_arg4 main_v13 main_v16
-- ==== Kernel.lean ====
abbrev S32768x1024 : Shape := ⟨2, ![32768, 1024]⟩
abbrev S1024x512 : Shape := ⟨2, ![1024, 512]⟩
abbrev S512 : Shape := ⟨1, ![512]⟩
abbrev S512x92 : Shape := ⟨2, ![512, 92]⟩
abbrev S92 : Shape := ⟨1, ![92]⟩
abbrev S32768x24x3 : Shape := ⟨3, ![32768, 24, 3]⟩
abbrev S32768x23 : Shape := ⟨2, ![32768, 23]⟩
abbrev S2048x1024 : Shape := ⟨2, ![2048, 1024]⟩
abbrev S2048x24x3 : Shape := ⟨3, ![2048, 24, 3]⟩
abbrev S2048x23 : Shape := ⟨2, ![2048, 23]⟩
abbrev S2048x512 : Shape := ⟨2, ![2048, 512]⟩
abbrev S1x512 : Shape := ⟨2, ![1, 512]⟩
abbrev S2048x92 : Shape := ⟨2, ![2048, 92]⟩
abbrev S1x92 : Shape := ⟨2, ![1, 92]⟩
abbrev S2048x23x4 : Shape := ⟨3, ![2048, 23, 4]⟩
abbrev S2048x23x3 : Shape := ⟨3, ![2048, 23, 3]⟩
abbrev S2048x23x1 : Shape := ⟨3, ![2048, 23, 1]⟩
abbrev S2048x1x3 : Shape := ⟨3, ![2048, 1, 3]⟩
abbrev S2048x3 : Shape := ⟨2, ![2048, 3]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x512, .f32⟩
  | .hbm, ⟨2, _⟩ => ⟨S512, .f32⟩
  | .hbm, ⟨3, _⟩ => ⟨S512x92, .f32⟩
  | .hbm, ⟨4, _⟩ => ⟨S92, .f32⟩
  | .hbm, ⟨5, _⟩ => ⟨S32768x24x3, .f32⟩
  | .hbm, ⟨6, _⟩ => ⟨S32768x24x3, .f32⟩
  | .hbm, ⟨7, _⟩ => ⟨S32768x23, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S512, .f32⟩
  | .local _ .vmem, ⟨4, _⟩ => ⟨S512x92, .f32⟩
  | .local _ .vmem, ⟨5, _⟩ => ⟨S92, .f32⟩
  | .local _ .vmem, ⟨6, _⟩ => ⟨S2048x24x3, .f32⟩
  | .local _ .vmem, ⟨7, _⟩ => ⟨S2048x24x3, .f32⟩
  | .local _ .vmem, ⟨8, _⟩ => ⟨S2048x24x3, .f32⟩
  | .local _ .vmem, ⟨9, _⟩ => ⟨S2048x24x3, .f32⟩
  | .local _ .vmem, ⟨10, _⟩ => ⟨S2048x23, .f32⟩
  | .local _ .vmem, ⟨11, _⟩ => ⟨S2048x23, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x92 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S92 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x24x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x24x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x23 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x92_S512x92_0_0 : ∀ a, (![0, 0] : Fin 2 → Nat) a + S512x92.size a ≤ S512x92.size a
  h_S512x92 : 0 < S512x92.numel
  inb_S92_S92_0 : ∀ a, (![0] : Fin 1 → Nat) a + S92.size a ≤ S92.size a
  h_S92 : 0 < S92.numel
  shapeCasts_S92_S1x92 : S92.ShapeCasts S1x92
  broadcasts_S1x92_S2048x92 : S1x92.Broadcasts S2048x92
  shapeCasts_S2048x92_S2048x23x4 : S2048x92.ShapeCasts S2048x23x4
  slices_S2048x23x4_o0_0_0_S2048x23x3 : S2048x23x4.Slices ![0, 0, 0] S2048x23x3
  reduces_S2048x23x3_S2048x23 : S2048x23x3.Reduces [2] S2048x23
  shapeCasts_S2048x23_S2048x23x1 : S2048x23.ShapeCasts S2048x23x1
  broadcasts_S2048x23x1_S2048x23x3 : S2048x23x1.Broadcasts S2048x23x3
  slices_S2048x23x4_o0_0_3_S2048x23x1 : S2048x23x4.Slices ![0, 0, 3] S2048x23x1
  shapeCasts_S2048x23x1_S2048x23 : S2048x23x1.ShapeCasts S2048x23
  concatenates_S2048x1x3_S2048x23x3_S2048x24x3_d1 : Shape.Concatenates [S2048x1x3, S2048x23x3] S2048x24x3 1
  inb_S2048x24x3_S2048x24x3_0_0_0 : ∀ a, (![0, 0, 0] : Fin 3 → Nat) a + S2048x24x3.size a ≤ S2048x24x3.size a
  h_S2048x24x3 : 0 < S2048x24x3.numel
  inb_S2048x23_S2048x23_0_0 : ∀ a, (![0, 0] : Fin 2 → Nat) a + S2048x23.size a ≤ S2048x23.size a
  h_S2048x23 : 0 < S2048x23.numel
  slices_S2048x24x3_o0_1_0_S2048x1x3 : S2048x24x3.Slices ![0, 1, 0] S2048x1x3
  shapeCasts_S2048x1x3_S2048x3 : S2048x1x3.ShapeCasts S2048x3
  slices_S2048x24x3_o0_2_0_S2048x1x3 : S2048x24x3.Slices ![0, 2, 0] S2048x1x3
  slices_S2048x24x3_o0_3_0_S2048x1x3 : S2048x24x3.Slices ![0, 3, 0] S2048x1x3
  slices_S2048x24x3_o0_4_0_S2048x1x3 : S2048x24x3.Slices ![0, 4, 0] S2048x1x3
  slices_S2048x24x3_o0_5_0_S2048x1x3 : S2048x24x3.Slices ![0, 5, 0] S2048x1x3
  slices_S2048x24x3_o0_6_0_S2048x1x3 : S2048x24x3.Slices ![0, 6, 0] S2048x1x3
  slices_S2048x24x3_o0_7_0_S2048x1x3 : S2048x24x3.Slices ![0, 7, 0] S2048x1x3
  slices_S2048x24x3_o0_8_0_S2048x1x3 : S2048x24x3.Slices ![0, 8, 0] S2048x1x3
  slices_S2048x24x3_o0_9_0_S2048x1x3 : S2048x24x3.Slices ![0, 9, 0] S2048x1x3
  slices_S2048x24x3_o0_10_0_S2048x1x3 : S2048x24x3.Slices ![0, 10, 0] S2048x1x3
  slices_S2048x24x3_o0_11_0_S2048x1x3 : S2048x24x3.Slices ![0, 11, 0] S2048x1x3
  slices_S2048x24x3_o0_12_0_S2048x1x3 : S2048x24x3.Slices ![0, 12, 0] S2048x1x3
  slices_S2048x24x3_o0_13_0_S2048x1x3 : S2048x24x3.Slices ![0, 13, 0] S2048x1x3
  slices_S2048x24x3_o0_14_0_S2048x1x3 : S2048x24x3.Slices ![0, 14, 0] S2048x1x3
  slices_S2048x24x3_o0_15_0_S2048x1x3 : S2048x24x3.Slices ![0, 15, 0] S2048x1x3
  slices_S2048x24x3_o0_16_0_S2048x1x3 : S2048x24x3.Slices ![0, 16, 0] S2048x1x3
  slices_S2048x24x3_o0_17_0_S2048x1x3 : S2048x24x3.Slices ![0, 17, 0] S2048x1x3
  slices_S2048x24x3_o0_18_0_S2048x1x3 : S2048x24x3.Slices ![0, 18, 0] S2048x1x3
  slices_S2048x24x3_o0_19_0_S2048x1x3 : S2048x24x3.Slices ![0, 19, 0] S2048x1x3
  slices_S2048x24x3_o0_20_0_S2048x1x3 : S2048x24x3.Slices ![0, 20, 0] S2048x1x3
  slices_S2048x24x3_o0_21_0_S2048x1x3 : S2048x24x3.Slices ![0, 21, 0] S2048x1x3
  slices_S2048x24x3_o0_22_0_S2048x1x3 : S2048x24x3.Slices ![0, 22, 0] S2048x1x3
  slices_S2048x24x3_o0_23_0_S2048x1x3 : S2048x24x3.Slices ![0, 23, 0] S2048x1x3
  shapeCasts_S2048x3_S2048x1x3 : S2048x3.ShapeCasts S2048x1x3
  concatenates_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x24x3_d1 : Shape.Concatenates [S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3, S2048x1x3] S2048x24x3 1
  dot_S2048x1024_S1024x512_S2048x512_1_0_0_1_n_n_wf : DotDims.WF S2048x1024 S1024x512 S2048x512 [1] [0] [0] [1] [] []
  dot_S2048x512_S512x92_S2048x92_1_0_0_1_n_n_wf : DotDims.WF S2048x512 S512x92 S2048x92 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x92.size a ≤ S512x92.size a
  hwx0_3 : ∀ i : grid0.Coords, EltTy.bits .f32 = 32 ∨ (Rect.block (s := S512x92) S512x92.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S92.size a ≤ S92.size a
  hwx0_4 : ∀ i : grid0.Coords, EltTy.bits .f32 = 32 ∨ (Rect.block (s := S92) S92.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x24x3.size a ≤ S32768x24x3.size a
  hwx0_5 : ∀ i : grid0.Coords, EltTy.bits .f32 = 32 ∨ (Rect.block (s := S32768x24x3) S2048x24x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x24x3.size a ≤ S32768x24x3.size a
  hwx0_6 : ∀ i : grid0.Coords, EltTy.bits .f32 = 32 ∨ (Rect.block (s := S32768x24x3) S2048x24x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x23.size a ≤ S32768x23.size a
  hwx0_7 : ∀ i : grid0.Coords, EltTy.bits .f32 = 32 ∨ (Rect.block (s := S32768x23) S2048x23.size (cc0_transform_7 i) (hinb0_7 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x92_S2048x92_1_0_0_1_n_n : DotDims S2048x512 S512x92 S2048x92 where
  lhsContracting := [1]
  rhsContracting := [0]
  lhsNonContracting := [0]
  rhsNonContracting := [1]
  lhsBatch := []
  rhsBatch := []
  wf := dot_S2048x512_S512x92_S2048x92_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x92.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S92.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S2048x24x3.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S2048x24x3.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S2048x23.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x512 : Shape := ⟨2, ![1024, 512]⟩
abbrev S512 : Shape := ⟨1, ![512]⟩
abbrev S512x92 : Shape := ⟨2, ![512, 92]⟩
abbrev S92 : Shape := ⟨1, ![92]⟩
abbrev S32768x512 : Shape := ⟨2, ![32768, 512]⟩
abbrev S1x512 : Shape := ⟨2, ![1, 512]⟩
abbrev S_ : Shape := ⟨0, ![]⟩
abbrev S32768x92 : Shape := ⟨2, ![32768, 92]⟩
abbrev S1x92 : Shape := ⟨2, ![1, 92]⟩
abbrev S32768x23x4 : Shape := ⟨3, ![32768, 23, 4]⟩
abbrev S32768x23x3 : Shape := ⟨3, ![32768, 23, 3]⟩
abbrev S32768x23 : Shape := ⟨2, ![32768, 23]⟩
abbrev S32768x23x1 : Shape := ⟨3, ![32768, 23, 1]⟩
abbrev S32768x1x3 : Shape := ⟨3, ![32768, 1, 3]⟩
abbrev S32768x24x3 : Shape := ⟨3, ![32768, 24, 3]⟩
abbrev S32768x3 : Shape := ⟨2, ![32768, 3]⟩
abbrev S32768x16x3 : Shape := ⟨3, ![32768, 16, 3]⟩
abbrev S32768x8x3 : Shape := ⟨3, ![32768, 8, 3]⟩

abbrev nBuf : Space → Nat
  | .hbm => 154
  | .vmem => 0
  | .smem => 0
  | _ => 0

abbrev hbmTy0_0 (i : Nat) : BufTy := match i % 128 with
  | 0 => ⟨S32768x1024, .f32⟩
  | 1 => ⟨S1024x512, .f32⟩
  | 2 => ⟨S512, .f32⟩
  | 3 => ⟨S512x92, .f32⟩
  | 4 => ⟨S92, .f32⟩
  | 5 => ⟨S32768x512, .f32⟩
  | 6 => ⟨S1x512, .f32⟩
  | 7 => ⟨S32768x512, .f32⟩
  | 8 => ⟨S32768x512, .f32⟩
  | 9 => ⟨S32768x512, .f32⟩
  | 10 => ⟨S32768x512, .f32⟩
  | 11 => ⟨S_, .f32⟩
  | 12 => ⟨S32768x512, .f32⟩
  | 13 => ⟨S32768x512, .f32⟩
  | 14 => ⟨S_, .f32⟩
  | 15 => ⟨S32768x512, .f32⟩
  | 16 => ⟨S32768x512, .f32⟩
  | 17 => ⟨S32768x512, .f32⟩
  | 18 => ⟨S32768x92, .f32⟩
  | 19 => ⟨S1x92, .f32⟩
  | 20 => ⟨S32768x92, .f32⟩
  | 21 => ⟨S32768x92, .f32⟩
  | 22 => ⟨S32768x23x4, .f32⟩
  | 23 => ⟨S32768x23x3, .f32⟩
  | 24 => ⟨S32768x23x3, .f32⟩
  | 25 => ⟨S_, .f32⟩
  | 26 => ⟨S32768x23, .f32⟩
  | 27 => ⟨S32768x23x1, .f32⟩
  | 28 => ⟨S32768x23x1, .f32⟩
  | 29 => ⟨S_, .f32⟩
  | 30 => ⟨S32768x23x1, .f32⟩
  | 31 => ⟨S32768x23x1, .f32⟩
  | 32 => ⟨S32768x23x3, .f32⟩
  | 33 => ⟨S32768x23x3, .f32⟩
  | 34 => ⟨S32768x23x1, .f32⟩
  | 35 => ⟨S32768x23, .f32⟩
  | 36 => ⟨S_, .f32⟩
  | 37 => ⟨S32768x23, .f32⟩
  | 38 => ⟨S32768x23, .f32⟩
  | 39 => ⟨S32768x23, .f32⟩
  | 40 => ⟨S32768x23, .f32⟩
  | 41 => ⟨S32768x23, .i1⟩
  | 42 => ⟨S32768x23, .f32⟩
  | 43 => ⟨S32768x23, .f32⟩
  | 44 => ⟨S32768x23, .f32⟩
  | 45 => ⟨S32768x23, .f32⟩
  | 46 => ⟨S32768x23, .f32⟩
  | 47 => ⟨S32768x23, .f32⟩
  | 48 => ⟨S32768x23, .f32⟩
  | 49 => ⟨S32768x23, .f32⟩
  | 50 => ⟨S32768x23x1, .f32⟩
  | 51 => ⟨S32768x23x3, .f32⟩
  | 52 => ⟨S32768x23x3, .f32⟩
  | 53 => ⟨S_, .f32⟩
  | 54 => ⟨S32768x1x3, .f32⟩
  | 55 => ⟨S32768x24x3, .f32⟩
  | 56 => ⟨S_, .f32⟩
  | 57 => ⟨S32768x3, .f32⟩
  | 58 => ⟨S32768x1x3, .f32⟩
  | 59 => ⟨S32768x3, .f32⟩
  | 60 => ⟨S32768x3, .f32⟩
  | 61 => ⟨S32768x1x3, .f32⟩
  | 62 => ⟨S32768x3, .f32⟩
  | 63 => ⟨S32768x3, .f32⟩
  | 64 => ⟨S32768x1x3, .f32⟩
  | 65 => ⟨S32768x3, .f32⟩
  | 66 => ⟨S32768x3, .f32⟩
  | 67 => ⟨S32768x1x3, .f32⟩
  | 68 => ⟨S32768x3, .f32⟩
  | 69 => ⟨S32768x3, .f32⟩
  | 70 => ⟨S32768x1x3, .f32⟩
  | 71 => ⟨S32768x3, .f32⟩
  | 72 => ⟨S32768x3, .f32⟩
  | 73 => ⟨S32768x1x3, .f32⟩
  | 74 => ⟨S32768x3, .f32⟩
  | 75 => ⟨S32768x3, .f32⟩
  | 76 => ⟨S32768x1x3, .f32⟩
  | 77 => ⟨S32768x3, .f32⟩
  | 78 => ⟨S32768x3, .f32⟩
  | 79 => ⟨S32768x1x3, .f32⟩
  | 80 => ⟨S32768x3, .f32⟩
  | 81 => ⟨S32768x3, .f32⟩
  | 82 => ⟨S32768x1x3, .f32⟩
  | 83 => ⟨S32768x3, .f32⟩
  | 84 => ⟨S32768x3, .f32⟩
  | 85 => ⟨S32768x1x3, .f32⟩
  | 86 => ⟨S32768x3, .f32⟩
  | 87 => ⟨S32768x3, .f32⟩
  | 88 => ⟨S32768x1x3, .f32⟩
  | 89 => ⟨S32768x3, .f32⟩
  | 90 => ⟨S32768x3, .f32⟩
  | 91 => ⟨S32768x1x3, .f32⟩
  | 92 => ⟨S32768x3, .f32⟩
  | 93 => ⟨S32768x3, .f32⟩
  | 94 => ⟨S32768x1x3, .f32⟩
  | 95 => ⟨S32768x3, .f32⟩
  | 96 => ⟨S32768x3, .f32⟩
  | 97 => ⟨S32768x1x3, .f32⟩
  | 98 => ⟨S32768x3, .f32⟩
  | 99 => ⟨S32768x3, .f32⟩
  | 100 => ⟨S32768x1x3, .f32⟩
  | 101 => ⟨S32768x3, .f32⟩
  | 102 => ⟨S32768x3, .f32⟩
  | 103 => ⟨S32768x1x3, .f32⟩
  | 104 => ⟨S32768x3, .f32⟩
  | 105 => ⟨S32768x3, .f32⟩
  | 106 => ⟨S32768x1x3, .f32⟩
  | 107 => ⟨S32768x3, .f32⟩
  | 108 => ⟨S32768x3, .f32⟩
  | 109 => ⟨S32768x1x3, .f32⟩
  | 110 => ⟨S32768x3, .f32⟩
  | 111 => ⟨S32768x3, .f32⟩
  | 112 => ⟨S32768x1x3, .f32⟩
  | 113 => ⟨S32768x3, .f32⟩
  | 114 => ⟨S32768x3, .f32⟩
  | 115 => ⟨S32768x1x3, .f32⟩
  | 116 => ⟨S32768x3, .f32⟩
  | 117 => ⟨S32768x3, .f32⟩
  | 118 => ⟨S32768x1x3, .f32⟩
  | 119 => ⟨S32768x3, .f32⟩
  | 120 => ⟨S32768x3, .f32⟩
  | 121 => ⟨S32768x1x3, .f32⟩
  | 122 => ⟨S32768x3, .f32⟩
  | 123 => ⟨S32768x3, .f32⟩
  | 124 => ⟨S32768x1x3, .f32⟩
  | 125 => ⟨S32768x3, .f32⟩
  | 126 => ⟨S32768x3, .f32⟩
  | 127 => ⟨S32768x1x3, .f32⟩
  | _ => ⟨S32768x1024, .f32⟩

abbrev hbmTy0_1 (i : Nat) : BufTy := match i % 128 with
  | 0 => ⟨S32768x1x3, .f32⟩
  | 1 => ⟨S32768x1x3, .f32⟩
  | 2 => ⟨S32768x1x3, .f32⟩
  | 3 => ⟨S32768x1x3, .f32⟩
  | 4 => ⟨S32768x1x3, .f32⟩
  | 5 => ⟨S32768x1x3, .f32⟩
  | 6 => ⟨S32768x1x3, .f32⟩
  | 7 => ⟨S32768x1x3, .f32⟩
  | 8 => ⟨S32768x1x3, .f32⟩
  | 9 => ⟨S32768x1x3, .f32⟩
  | 10 => ⟨S32768x1x3, .f32⟩
  | 11 => ⟨S32768x1x3, .f32⟩
  | 12 => ⟨S32768x1x3, .f32⟩
  | 13 => ⟨S32768x1x3, .f32⟩
  | 14 => ⟨S32768x1x3, .f32⟩
  | 15 => ⟨S32768x1x3, .f32⟩
  | 16 => ⟨S32768x1x3, .f32⟩
  | 17 => ⟨S32768x1x3, .f32⟩
  | 18 => ⟨S32768x1x3, .f32⟩
  | 19 => ⟨S32768x1x3, .f32⟩
  | 20 => ⟨S32768x1x3, .f32⟩
  | 21 => ⟨S32768x1x3, .f32⟩
  | 22 => ⟨S32768x1x3, .f32⟩
  | 23 => ⟨S32768x16x3, .f32⟩
  | 24 => ⟨S32768x8x3, .f32⟩
  | 25 => ⟨S32768x24x3, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call2_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_0 : Ref sig .tc := ⟨.hbm, 53, rfl⟩
abbrev main_v22 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S92_S1x92_1 : S92.BroadcastsInDim S1x92 (![1] : Fin 1 → Fin S1x92.rank)
  bcast_S1x92_S32768x92_0_1 : S1x92.BroadcastsInDim S32768x92 (![0, 1] : Fin 2 → Fin S32768x92.rank)
  shapeCasts_S32768x92_S32768x23x4 : S32768x92.ShapeCasts S32768x23x4
  slices_S32768x23x4_S32768x23x3_0_0_0 : S32768x23x4.Slices ![0, 0, 0] S32768x23x3
  reducesTo_S32768x23x3_S32768x23_d2 : S32768x23x3.ReducesTo [2] S32768x23
  h_S_ : 0 < S_.numel
  bcast_S32768x23_S32768x23x1_0_1 : S32768x23.BroadcastsInDim S32768x23x1 (![0, 1] : Fin 2 → Fin S32768x23x1.rank)
  bcast_S_S32768x23x1 : S_.BroadcastsInDim S32768x23x1 (![] : Fin 0 → Fin S32768x23x1.rank)
  bcast_S32768x23x1_S32768x23x3_0_1_2 : S32768x23x1.BroadcastsInDim S32768x23x3 (![0, 1, 2] : Fin 3 → Fin S32768x23x3.rank)
  slices_S32768x23x4_S32768x23x1_0_0_3 : S32768x23x4.Slices ![0, 0, 3] S32768x23x1
  shapeCasts_S32768x23x1_S32768x23 : S32768x23x1.ShapeCasts S32768x23
  bcast_S_S32768x23 : S_.BroadcastsInDim S32768x23 (![] : Fin 0 → Fin S32768x23.rank)
  bcast_S_S32768x1x3 : S_.BroadcastsInDim S32768x1x3 (![] : Fin 0 → Fin S32768x1x3.rank)
  concatenates_S32768x1x3_S32768x23x3_S32768x24x3_d1 : Shape.Concatenates [S32768x1x3, S32768x23x3] S32768x24x3 1
  bcast_S_S32768x3 : S_.BroadcastsInDim S32768x3 (![] : Fin 0 → Fin S32768x3.rank)
  slices_S32768x24x3_S32768x1x3_0_1_0 : S32768x24x3.Slices ![0, 1, 0] S32768x1x3
  shapeCasts_S32768x1x3_S32768x3 : S32768x1x3.ShapeCasts S32768x3
  slices_S32768x24x3_S32768x1x3_0_2_0 : S32768x24x3.Slices ![0, 2, 0] S32768x1x3
  slices_S32768x24x3_S32768x1x3_0_3_0 : S32768x24x3.Slices ![0, 3, 0] S32768x1x3
  slices_S32768x24x3_S32768x1x3_0_4_0 : S32768x24x3.Slices ![0, 4, 0] S32768x1x3
  slices_S32768x24x3_S32768x1x3_0_5_0 : S32768x24x3.Slices ![0, 5, 0] S32768x1x3
  slices_S32768x24x3_S32768x1x3_0_6_0 : S32768x24x3.Slices ![0, 6, 0] S32768x1x3
  slices_S32768x24x3_S32768x1x3_0_7_0 : S32768x24x3.Slices ![0, 7, 0] S32768x1x3
  slices_S32768x24x3_S32768x1x3_0_8_0 : S32768x24x3.Slices ![0, 8, 0] S32768x1x3
  slices_S32768x24x3_S32768x1x3_0_9_0 : S32768x24x3.Slices ![0, 9, 0] S32768x1x3
  slices_S32768x24x3_S32768x1x3_0_10_0 : S32768x24x3.Slices ![0, 10, 0] S32768x1x3
  slices_S32768x24x3_S32768x1x3_0_11_0 : S32768x24x3.Slices ![0, 11, 0] S32768x1x3
  slices_S32768x24x3_S32768x1x3_0_12_0 : S32768x24x3.Slices ![0, 12, 0] S32768x1x3
  slices_S32768x24x3_S32768x1x3_0_13_0 : S32768x24x3.Slices ![0, 13, 0] S32768x1x3
  slices_S32768x24x3_S32768x1x3_0_14_0 : S32768x24x3.Slices ![0, 14, 0] S32768x1x3
  slices_S32768x24x3_S32768x1x3_0_15_0 : S32768x24x3.Slices ![0, 15, 0] S32768x1x3
  slices_S32768x24x3_S32768x1x3_0_16_0 : S32768x24x3.Slices ![0, 16, 0] S32768x1x3
  slices_S32768x24x3_S32768x1x3_0_17_0 : S32768x24x3.Slices ![0, 17, 0] S32768x1x3
  slices_S32768x24x3_S32768x1x3_0_18_0 : S32768x24x3.Slices ![0, 18, 0] S32768x1x3
  slices_S32768x24x3_S32768x1x3_0_19_0 : S32768x24x3.Slices ![0, 19, 0] S32768x1x3
  slices_S32768x24x3_S32768x1x3_0_20_0 : S32768x24x3.Slices ![0, 20, 0] S32768x1x3
  slices_S32768x24x3_S32768x1x3_0_21_0 : S32768x24x3.Slices ![0, 21, 0] S32768x1x3
  slices_S32768x24x3_S32768x1x3_0_22_0 : S32768x24x3.Slices ![0, 22, 0] S32768x1x3
  slices_S32768x24x3_S32768x1x3_0_23_0 : S32768x24x3.Slices ![0, 23, 0] S32768x1x3
  bcast_S32768x3_S32768x1x3_0_2 : S32768x3.BroadcastsInDim S32768x1x3 (![0, 2] : Fin 2 → Fin S32768x1x3.rank)
  concatenates_S32768x1x3_S32768x1x3_S32768x1x3_S32768x1x3_S32768x1x3_S32768x1x3_S32768x1x3_S32768x1x3_S32768x1x3_S32768x1x3_S32768x1x3_S32768x1x3_S32768x1x3_S32768x1x3_S32768x1x3_S32768x1x3_S32768x16x3_d1 : Shape.Concatenates [S32768x1x3, S32768x1x3, S32768x1x3, S32768x1x3, S32768x1x3, S32768x1x3, S32768x1x3, S32768x1x3, S32768x1x3, S32768x1x3, S32768x1x3, S32768x1x3, S32768x1x3, S32768x1x3, S32768x1x3, S32768x1x3] S32768x16x3 1
  concatenates_S32768x1x3_S32768x1x3_S32768x1x3_S32768x1x3_S32768x1x3_S32768x1x3_S32768x1x3_S32768x1x3_S32768x8x3_d1 : Shape.Concatenates [S32768x1x3, S32768x1x3, S32768x1x3, S32768x1x3, S32768x1x3, S32768x1x3, S32768x1x3, S32768x1x3] S32768x8x3 1
  concatenates_S32768x16x3_S32768x8x3_S32768x24x3_d1 : Shape.Concatenates [S32768x16x3, S32768x8x3] S32768x24x3 1
  dot_S32768x1024_S1024x512_S32768x512_1_0_0_1_n_n_wf : DotDims.WF S32768x1024 S1024x512 S32768x512 [1] [0] [0] [1] [] []
  dot_S32768x512_S512x92_S32768x92_1_0_0_1_n_n_wf : DotDims.WF S32768x512 S512x92 S32768x92 [1] [0] [0] [1] [] []

variable [Facts₀]

def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x92_S32768x92_1_0_0_1_n_n : DotDims S32768x512 S512x92 S32768x92 where
  lhsContracting := [1]
  rhsContracting := [0]
  lhsNonContracting := [0]
  rhsNonContracting := [1]
  lhsBatch := []
  rhsBatch := []
  wf := dot_S32768x512_S512x92_S32768x92_1_0_0_1_n_n_wf

class Facts : Prop extends Facts₀ where

variable [Facts]
-- ==== Proof.Spec.lean ====
/-
  The mathematics both programs compute, one batch row at a time.

  A row `zr` of the latent array goes through two dense layers: `pre = zr·W1 + b1`, the activation `h ↦ h · logistic h`,
  and `raw = act·W2 + b2`, a row of 92 numbers read as 23 groups of 4.  In each group the first three numbers are a vector
  and the fourth a log-length: the vector is divided by the larger of its Euclidean norm and a tiny constant, the fourth
  goes through softplus `x ↦ max x 0 + log1p (exp (-|x|))`, and their product is the offset of one joint from its
  parent.  Joint 0 has offset zero.  A joint's position is its parent's position plus its own offset along the fixed
  tree of 24 joints, so it is the sum of the offsets on its path from the root, added in path order.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The floor under a norm before dividing by it: the single-precision number nearest 1e-12, the same word in both programs. -/
abbrev eps : EReal := Ideal.ofBits .f32 0x2B8CBCCC#32

/-- The first layer at hidden unit `j`: the row times column `j` of `W1`, plus the bias. -/
def pre (zr : Fin 1024 → EReal) (W1 : (⟨2, ![1024, 512]⟩ : Shape).Idx → EReal) (b1 : (⟨1, ![512]⟩ : Shape).Idx → EReal)
    (j : Fin 512) : EReal :=
  (∑ k : Fin 1024, zr k * W1 (ix2 k j)) + b1 (ix1 j)

/-- The activation `h · logistic h`. -/
def act (h : EReal) : EReal := h * Ideal.logistic h

/-- The second layer at output `c`: the activated hidden row times column `c` of `W2`, plus the bias. -/
def raw (zr : Fin 1024 → EReal) (W1 : (⟨2, ![1024, 512]⟩ : Shape).Idx → EReal) (b1 : (⟨1, ![512]⟩ : Shape).Idx → EReal)
    (W2 : (⟨2, ![512, 92]⟩ : Shape).Idx → EReal) (b2 : (⟨1, ![92]⟩ : Shape).Idx → EReal) (c : Fin 92) : EReal :=
  (∑ j : Fin 512, act (pre zr W1 b1 j) * W2 (ix2 j c)) + b2 (ix1 c)

/-- The row of 92 read as 23 groups of 4: entry `e` of group `a` is entry `4a + e`. -/
def grp (r : Fin 92 → EReal) (a : Fin 23) (e : Fin 4) : EReal :=
  r ⟨4 * a.val + e.val, by have := a.isLt; have := e.isLt; omega⟩

/-- The Euclidean norm of group `a`'s first three entries. -/
def nrm (q : Fin 23 → Fin 4 → EReal) (a : Fin 23) : EReal :=
  Ideal.sqrt (∑ d : Fin 3, q a d.castSucc * q a d.castSucc)

/-- The direction: entry `d` of the vector over its floored norm. -/
def dir (q : Fin 23 → Fin 4 → EReal) (a : Fin 23) (d : Fin 3) : EReal :=
  Ideal.div (q a d.castSucc) (max (nrm q a) eps)

/-- Softplus, as `logaddexp x 0` spells it away from the undefined case: `max x 0 + log1p (exp (0 - |x - 0|))`. -/
def softplus (x : EReal) : EReal :=
  max x 0 + Ideal.log1p (Ideal.exp (0 - max (x - 0) (-(x - 0))))

/-- The length of bone `a`: softplus of the group's fourth entry. -/
def len (q : Fin 23 → Fin 4 → EReal) (a : Fin 23) : EReal := softplus (q a 3)

/-- The offset of joint `j` from its parent: zero for the root, direction times length of bone `j - 1` otherwise. -/
def off (q : Fin 23 → Fin 4 → EReal) (j : Fin 24) (d : Fin 3) : EReal :=
  if h : j.val = 0 then 0 else
    dir q ⟨j.val - 1, by have := j.isLt; omega⟩ d * len q ⟨j.val - 1, by have := j.isLt; omega⟩

/-- Positions along the tree from offsets `o`, the root at `z`: joint `j` is `z` plus the offsets on the path from the root
    to `j`, added in that order (each line is its parent's line plus one more offset). -/
def pos (z : EReal) (o : Fin 24 → EReal) : Fin 24 → EReal
  | ⟨0, _⟩ => z
  | ⟨1, _⟩ => z + o 1
  | ⟨2, _⟩ => z + o 2
  | ⟨3, _⟩ => z + o 3
  | ⟨4, _⟩ => z + o 1 + o 4
  | ⟨5, _⟩ => z + o 2 + o 5
  | ⟨6, _⟩ => z + o 3 + o 6
  | ⟨7, _⟩ => z + o 1 + o 4 + o 7
  | ⟨8, _⟩ => z + o 2 + o 5 + o 8
  | ⟨9, _⟩ => z + o 3 + o 6 + o 9
  | ⟨10, _⟩ => z + o 1 + o 4 + o 7 + o 10
  | ⟨11, _⟩ => z + o 2 + o 5 + o 8 + o 11
  | ⟨12, _⟩ => z + o 3 + o 6 + o 9 + o 12
  | ⟨13, _⟩ => z + o 3 + o 6 + o 9 + o 13
  | ⟨14, _⟩ => z + o 3 + o 6 + o 9 + o 14
  | ⟨15, _⟩ => z + o 3 + o 6 + o 9 + o 12 + o 15
  | ⟨16, _⟩ => z + o 3 + o 6 + o 9 + o 13 + o 16
  | ⟨17, _⟩ => z + o 3 + o 6 + o 9 + o 14 + o 17
  | ⟨18, _⟩ => z + o 3 + o 6 + o 9 + o 13 + o 16 + o 18
  | ⟨19, _⟩ => z + o 3 + o 6 + o 9 + o 14 + o 17 + o 19
  | ⟨20, _⟩ => z + o 3 + o 6 + o 9 + o 13 + o 16 + o 18 + o 20
  | ⟨21, _⟩ => z + o 3 + o 6 + o 9 + o 14 + o 17 + o 19 + o 21
  | ⟨22, _⟩ => z + o 3 + o 6 + o 9 + o 13 + o 16 + o 18 + o 20 + o 22
  | ⟨23, _⟩ => z + o 3 + o 6 + o 9 + o 14 + o 17 + o 19 + o 21 + o 23
  | ⟨n + 24, h⟩ => absurd h (by omega)

/-- The groups of the row computed from latent row `zr`. -/
def groups (zr : Fin 1024 → EReal) (W1 : (⟨2, ![1024, 512]⟩ : Shape).Idx → EReal) (b1 : (⟨1, ![512]⟩ : Shape).Idx → EReal)
    (W2 : (⟨2, ![512, 92]⟩ : Shape).Idx → EReal) (b2 : (⟨1, ![92]⟩ : Shape).Idx → EReal) : Fin 23 → Fin 4 → EReal :=
  grp (raw zr W1 b1 W2 b2)

/-- Row `r` of the latent array. -/
def row (z : (⟨2, ![32768, 1024]⟩ : Shape).Idx → EReal) (r : Fin 32768) : Fin 1024 → EReal := fun k => z (ix2 r k)

variable (z : (⟨2, ![32768, 1024]⟩ : Shape).Idx → EReal) (W1 : (⟨2, ![1024, 512]⟩ : Shape).Idx → EReal)
  (b1 : (⟨1, ![512]⟩ : Shape).Idx → EReal) (W2 : (⟨2, ![512, 92]⟩ : Shape).Idx → EReal) (b2 : (⟨1, ![92]⟩ : Shape).Idx → EReal)

/-- The bone lengths, one per batch row and bone. -/
def lengths : (⟨2, ![32768, 23]⟩ : Shape).Idx → EReal := fun i =>
  len (groups (row z (i 0)) W1 b1 W2 b2) (i 1)

/-- The joint offsets, one per batch row, joint and coordinate. -/
def offsets : (⟨3, ![32768, 24, 3]⟩ : Shape).Idx → EReal := fun i =>
  off (groups (row z (i 0)) W1 b1 W2 b2) (i 1) (i 2)

/-- The joint positions, one per batch row, joint and coordinate. -/
def joints : (⟨3, ![32768, 24, 3]⟩ : Shape).Idx → EReal := fun i =>
  pos 0 (fun a => off (groups (row z (i 0)) W1 b1 W2 b2) a (i 2)) (i 1)

end Cert.Spec

end
-- ==== Proof.KernelDense.lean ====
/-
  The kernel body's two dense layers, read at one entry.

  For a block of latent rows the body multiplies by `W1`, adds `b1` along rows, applies `h ↦ h · logistic h`, multiplies
  by `W2`, adds `b2`, and regroups each row of 92 as 23 groups of 4.  Entry `(p, a, e)` of the result depends on row `p` of
  the block only: it is entry `4a + e` of that row's second-layer output.  (The matrix products are sums over the
  contracted axis; the narrowing to half precision before each product is the identity on extended reals.)
-/
import proofs.«106758_j18236431139314_1_alg».proof.Proof.Gen.KernelIdeal.Skeleton
import proofs.«106758_j18236431139314_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The first product's dimensions: [2048, 1024] by [1024, 512], contracting the 1024. -/
abbrev D1 := dot_S2048x1024_S1024x512_S2048x512_1_0_0_1_n_n
/-- The second product's dimensions: [2048, 512] by [512, 92], contracting the 512. -/
abbrev D2 := dot_S2048x512_S512x92_S2048x92_1_0_0_1_n_n

theorem d1_lhs0 (i : S2048x512.Idx) (q : D1.contr.Idx) : (D1.lhsIdx i q 0).val = (i 0).val := by
  unfold DotDims.lhsIdx
  rw [dif_neg (show ¬(0 : Fin S2048x1024.rank) ∈ D1.lhsBatch by decide), dif_pos (show (0 : Fin S2048x1024.rank) ∈ D1.lhsNonContracting by decide)]
  rfl
theorem d1_rhs1 (i : S2048x512.Idx) (q : D1.contr.Idx) : (D1.rhsIdx i q 1).val = (i 1).val := by
  unfold DotDims.rhsIdx
  rw [dif_neg (show ¬(1 : Fin S1024x512.rank) ∈ D1.rhsBatch by decide), dif_pos (show (1 : Fin S1024x512.rank) ∈ D1.rhsNonContracting by decide)]
  rfl
theorem d2_lhs0 (i : S2048x92.Idx) (q : D2.contr.Idx) : (D2.lhsIdx i q 0).val = (i 0).val := by
  unfold DotDims.lhsIdx
  rw [dif_neg (show ¬(0 : Fin S2048x512.rank) ∈ D2.lhsBatch by decide), dif_pos (show (0 : Fin S2048x512.rank) ∈ D2.lhsNonContracting by decide)]
  rfl
theorem d2_rhs1 (i : S2048x92.Idx) (q : D2.contr.Idx) : (D2.rhsIdx i q 1).val = (i 1).val := by
  unfold DotDims.rhsIdx
  rw [dif_neg (show ¬(1 : Fin S512x92.rank) ∈ D2.rhsBatch by decide), dif_pos (show (1 : Fin S512x92.rank) ∈ D2.rhsNonContracting by decide)]
  rfl

/-- The first product into a zero accumulator at `(p, j)`: row `p` of the left factor against column `j` of the right. -/
theorem mm1 (A : FVec Ideal S2048x1024 .bf16) (B : FVec Ideal S1024x512 .bf16) (p : Fin 2048) (j : Fin 512) :
    matmul D1 none A B (constant S2048x512 .f32 0x00000000#32) (ix2 p j) = ∑ k : Fin 1024, A (ix2 p k) * B (ix2 k j) := by
  refine (Ideal.matmul_constant_zero_apply D1 none A B (ix2 p j)).trans ?_
  rw [← Equiv.sum_comp (contrEquiv1 D1 1024 rfl rfl).symm]
  refine Finset.sum_congr rfl fun k _ => ?_
  have hk := contrEquiv1_symm_val D1 1024 rfl rfl k
  have el : D1.lhsIdx (ix2 p j) ((contrEquiv1 D1 1024 rfl rfl).symm k) = ix2 p k := funext fun a => Fin.ext (by
    match a with
    | ⟨0, _⟩ => exact d1_lhs0 _ _
    | ⟨1, _⟩ => exact (D1.lhsIdx_val_of_single rfl _ _).trans hk)
  have er : D1.rhsIdx (ix2 p j) ((contrEquiv1 D1 1024 rfl rfl).symm k) = ix2 k j := funext fun a => Fin.ext (by
    match a with
    | ⟨0, _⟩ => exact (D1.rhsIdx_val_of_single rfl _ _).trans hk
    | ⟨1, _⟩ => exact d1_rhs1 _ _)
  rw [el, er]

/-- The second product into a zero accumulator at `(p, c)`. -/
theorem mm2 (A : FVec Ideal S2048x512 .bf16) (B : FVec Ideal S512x92 .bf16) (p : Fin 2048) (c : Fin 92) :
    matmul D2 none A B (constant S2048x92 .f32 0x00000000#32) (ix2 p c) = ∑ k : Fin 512, A (ix2 p k) * B (ix2 k c) := by
  refine (Ideal.matmul_constant_zero_apply D2 none A B (ix2 p c)).trans ?_
  rw [← Equiv.sum_comp (contrEquiv1 D2 512 rfl rfl).symm]
  refine Finset.sum_congr rfl fun k _ => ?_
  have hk := contrEquiv1_symm_val D2 512 rfl rfl k
  have el : D2.lhsIdx (ix2 p c) ((contrEquiv1 D2 512 rfl rfl).symm k) = ix2 p k := funext fun a => Fin.ext (by
    match a with
    | ⟨0, _⟩ => exact d2_lhs0 _ _
    | ⟨1, _⟩ => exact (D2.lhsIdx_val_of_single rfl _ _).trans hk)
  have er : D2.rhsIdx (ix2 p c) ((contrEquiv1 D2 512 rfl rfl).symm k) = ix2 k c := funext fun a => Fin.ext (by
    match a with
    | ⟨0, _⟩ => exact (D2.rhsIdx_val_of_single rfl _ _).trans hk
    | ⟨1, _⟩ => exact d2_rhs1 _ _)
  rw [el, er]

/-- A bias of 512 entries laid along every row, at `(p, j)`: its entry `j`. -/
theorem bias1 (b : Vec Ideal S512 .f32) (p : Fin 2048) (j : Fin 512) :
    broadcastTo S2048x512 (shapeCast S1x512 b shapeCasts_S512_S1x512) broadcasts_S1x512_S2048x512 (ix2 p j) = b (ix1 j) :=
  (broadcastTo_1b_ab_apply _ _ p j).trans (shapeCast_a_1a_apply b _ 0 j)

/-- A bias of 92 entries laid along every row, at `(p, c)`: its entry `c`. -/
theorem bias2 (b : Vec Ideal S92 .f32) (p : Fin 2048) (c : Fin 92) :
    broadcastTo S2048x92 (shapeCast S1x92 b shapeCasts_S92_S1x92) broadcasts_S1x92_S2048x92 (ix2 p c) = b (ix1 c) :=
  (broadcastTo_1b_ab_apply _ _ p c).trans (shapeCast_a_1a_apply b _ 0 c)

/-- The first layer's output for a block. -/
def hidden (v0 : Vec Ideal S2048x1024 .f32) (v2 : Vec Ideal S1024x512 .f32) (v5 : Vec Ideal S512 .f32) : FVec Ideal S2048x512 .f32 :=
  addf (matmul D1 none (truncf .bf16 v0 bitsLt_bf16_f32) (truncf .bf16 v2 bitsLt_bf16_f32) (constant S2048x512 .f32 0x00000000#32))
    (broadcastTo S2048x512 (shapeCast S1x512 v5 shapeCasts_S512_S1x512) broadcasts_S1x512_S2048x512)

theorem hidden_apply (v0 : Vec Ideal S2048x1024 .f32) (v2 : Vec Ideal S1024x512 .f32) (v5 : Vec Ideal S512 .f32)
    (p : Fin 2048) (j : Fin 512) : hidden v0 v2 v5 (ix2 p j) = Spec.pre (fun k => v0 (ix2 p k)) v2 v5 j := by
  unfold hidden Spec.pre
  rw [addf_apply, mm1, bias1]
  rfl

/-- The second layer's output for a block, before regrouping. -/
def dense (v0 : Vec Ideal S2048x1024 .f32) (v2 : Vec Ideal S1024x512 .f32) (v5 : Vec Ideal S512 .f32)
    (v12 : Vec Ideal S512x92 .f32) (v15 : Vec Ideal S92 .f32) : FVec Ideal S2048x92 .f32 :=
  addf (matmul D2 none (truncf .bf16 (mulf (hidden v0 v2 v5) (logistic (hidden v0 v2 v5))) bitsLt_bf16_f32) (truncf .bf16 v12 bitsLt_bf16_f32) (constant S2048x92 .f32 0x00000000#32))
    (broadcastTo S2048x92 (shapeCast S1x92 v15 shapeCasts_S92_S1x92) broadcasts_S1x92_S2048x92)

/-- At `(p, c)` it is the row function of row `p`. -/
theorem dense_apply (v0 : Vec Ideal S2048x1024 .f32) (v2 : Vec Ideal S1024x512 .f32) (v5 : Vec Ideal S512 .f32)
    (v12 : Vec Ideal S512x92 .f32) (v15 : Vec Ideal S92 .f32) (p : Fin 2048) (c : Fin 92) :
    dense v0 v2 v5 v12 v15 (ix2 p c) = Spec.raw (fun k => v0 (ix2 p k)) v2 v5 v12 v15 c := by
  unfold dense Spec.raw
  rw [addf_apply, mm2, bias2]
  refine congrArg (· + _) (Finset.sum_congr rfl fun j _ => ?_)
  show hidden v0 v2 v5 (ix2 p j) * Ideal.logistic (hidden v0 v2 v5 (ix2 p j)) * v12 (ix2 j c) = _
  rw [hidden_apply]
  rfl

/-- The regrouped output at `(p, a, e)`: entry `4a + e` of row `p`'s second-layer output. -/
theorem groups_apply (v0 : Vec Ideal S2048x1024 .f32) (v2 : Vec Ideal S1024x512 .f32) (v5 : Vec Ideal S512 .f32)
    (v12 : Vec Ideal S512x92 .f32) (v15 : Vec Ideal S92 .f32) (p : Fin 2048) (a : Fin 23) (e : Fin 4) :
    k0_pay11 v0 v2 v5 v12 v15 (ix3 p a e) = Spec.groups (fun k => v0 (ix2 p k)) v2 v5 v12 v15 a e := by
  have h : k0_pay11 v0 v2 v5 v12 v15 = shapeCast S2048x23x4 (dense v0 v2 v5 v12 v15) shapeCasts_S2048x92_S2048x23x4 := rfl
  rw [h]
  refine (shapeCast_apply _ _ (ix3 p a e) (ix2 p ⟨4 * a.val + e.val, by have := a.isLt; have := e.isLt; omega⟩) ?_).trans (dense_apply ..)
  rw [Shape.rowMajor_val_three, Shape.rowMajor_val_two]
  show p.val * 92 + (4 * a.val + e.val) = (p.val * 23 + a.val) * 4 + e.val
  omega

end Cert.KernelIdeal.Body

end
-- ==== Proof.KernelHead.lean ====
/-
  The rest of the kernel body, read at one entry: directions, bone lengths, joint offsets and joint positions.

  From the regrouped second-layer output `Q` (23 groups of 4 per row) the body takes each group's first three entries as a
  vector, sums their squares, takes the square root, floors it by a tiny constant and divides; it puts the fourth entry
  through softplus; the offsets are a zero row followed by the 23 products direction × length; and the positions are
  built one joint at a time, each as its parent's vector plus one row of the offsets, then stacked.  Every entry
  `(p, ·, ·)` depends on row `p` of `Q` alone, and equals the row function of the specification.
-/
import proofs.«106758_j18236431139314_1_alg».proof.Proof.KernelDense

noncomputable section

namespace Cert.KernelIdeal.Body

open Cert.KernelIdeal Cert.KernelIdeal.Gen Idealize.ShloMosaic Idealize.ShloMosaic.ValueIdx

/-- The zero word as an extended real. -/
abbrev Z0 : EReal := Ideal.ofBits .f32 0x00000000#32

section head
variable (Q : FVec Ideal S2048x23x4 .f32)

/-- The first three entries of every group. -/
def vec3 : FVec Ideal S2048x23x3 .f32 :=
  extractStridedSlice S2048x23x3 ![0, 0, 0] Q slices_S2048x23x4_o0_0_0_S2048x23x3

theorem vec3_apply (p : Fin 2048) (a : Fin 23) (d : Fin 3) : vec3 Q (ix3 p a d) = Q (ix3 p a d.castSucc) :=
  extractStridedSlice_apply _ _ _ _ (ix3 p a d.castSucc) (fun ax => by
    match ax with
    | ⟨0, _⟩ => exact (Nat.zero_add _).symm
    | ⟨1, _⟩ => exact (Nat.zero_add _).symm
    | ⟨2, _⟩ => exact (Nat.zero_add _).symm)

/-- A sum over the last axis of a [2048, 23, 3] array, from zero, at `(p, a)`: the three entries of that group added. -/
theorem sum3 (V : FVec Ideal S2048x23x3 .f32) (p : Fin 2048) (a : Fin 23) :
    multiReduction .add [2] S2048x23 V 0x00000000#32 reduces_S2048x23x3_S2048x23 (.inl rfl) rfl (ix2 p a)
      = ∑ d : Fin 3, V (ix3 p a d) := by
  refine (Ideal.multiReduction_add_single V 0x00000000#32 reduces_S2048x23x3_S2048x23 (.inl rfl) rfl (ix2 p a)).trans ?_
  refine Finset.sum_congr rfl fun k _ => ?_
  exact congrArg V (funext fun c => Fin.ext (by match c with | ⟨0, _⟩ => rfl | ⟨1, _⟩ => rfl | ⟨2, _⟩ => rfl))

/-- The norms, kept with a trailing unit axis. -/
def nrmv : FVec Ideal S2048x23x1 .f32 :=
  sqrt (shapeCast S2048x23x1 (multiReduction .add [2] S2048x23 (mulf (vec3 Q) (vec3 Q)) 0x00000000#32 reduces_S2048x23x3_S2048x23 (.inl rfl) rfl) shapeCasts_S2048x23_S2048x23x1)

theorem nrmv_apply (p : Fin 2048) (a : Fin 23) :
    nrmv Q (ix3 p a (0 : Fin 1)) = Spec.nrm (fun a e => Q (ix3 p a e)) a := by
  unfold nrmv Spec.nrm
  show Ideal.sqrt (shapeCast S2048x23x1 _ shapeCasts_S2048x23_S2048x23x1 (ix3 p a (0 : Fin 1))) = Ideal.sqrt _
  refine congrArg Ideal.sqrt ?_
  refine (shapeCast_apply _ _ (ix3 p a (0 : Fin 1)) (ix2 p a) ?_).trans ?_
  · rw [Shape.rowMajor_val_two, Shape.rowMajor_val_three]
    show p.val * 23 + a.val = (p.val * 23 + a.val) * 1 + 0
    omega
  · refine (sum3 _ p a).trans (Finset.sum_congr rfl fun d _ => ?_)
    rw [mulf_apply, vec3_apply]

/-- The directions. -/
def dirv : FVec Ideal S2048x23x3 .f32 :=
  divf (vec3 Q) (broadcastTo S2048x23x3 (maximumf (nrmv Q) (broadcast S2048x23x1 (Scalar.ofBits (F := Ideal) .f32 0x2B8CBCCC#32))) broadcasts_S2048x23x1_S2048x23x3)

theorem dirv_apply (p : Fin 2048) (a : Fin 23) (d : Fin 3) :
    dirv Q (ix3 p a d) = Spec.dir (fun a e => Q (ix3 p a e)) a d := by
  unfold dirv Spec.dir
  rw [divf_apply, vec3_apply]
  refine congrArg (Ideal.div _) ?_
  refine (broadcastTo_apply _ _ (ix3 p a d) (ix3 p a (0 : Fin 1)) (fun ax => ?_)).trans ?_
  · match ax with
    | ⟨0, _⟩ => rfl
    | ⟨1, _⟩ => rfl
    | ⟨2, _⟩ => rfl
  · rw [maximumf_apply, nrmv_apply]
    rfl

/-- The fourth entry of every group. -/
def logLen : FVec Ideal S2048x23 .f32 :=
  shapeCast S2048x23 (extractStridedSlice S2048x23x1 ![0, 0, 3] Q slices_S2048x23x4_o0_0_3_S2048x23x1) shapeCasts_S2048x23x1_S2048x23

theorem logLen_apply (p : Fin 2048) (a : Fin 23) : logLen Q (ix2 p a) = Q (ix3 p a (3 : Fin 4)) :=
  (shapeCast_apply _ _ (ix2 p a) (ix3 p a (0 : Fin 1)) (by
    rw [Shape.rowMajor_val_three, Shape.rowMajor_val_two]
    show (p.val * 23 + a.val) * 1 + 0 = p.val * 23 + a.val
    omega)).trans
  (extractStridedSlice_apply _ _ _ _ (ix3 p a (3 : Fin 4)) (fun ax => by
    match ax with
    | ⟨0, _⟩ => exact (Nat.zero_add _).symm
    | ⟨1, _⟩ => exact (Nat.zero_add _).symm
    | ⟨2, _⟩ => rfl))

/-- Softplus as the body spells it on one number, the undefined-case guard included. -/
def softplusK (x : Ideal .f32) : Ideal .f32 :=
  Scalar.select (FloatOps.cmpf .one (FloatOps.subf x Z0) (FloatOps.subf x Z0)) (FloatOps.addf x Z0)
    (FloatOps.addf (FloatOps.maximumf x Z0) (FloatOps.log1p (FloatOps.exp (FloatOps.subf Z0 (FloatOps.absf (FloatOps.subf x Z0))))))

/-- A number is never different from itself, so the guard never fires and the second branch is softplus. -/
theorem softplusK_eq (x : EReal) : softplusK x = Spec.softplus x := by
  unfold softplusK Spec.softplus
  show Scalar.select (Ideal.cmp .one (x - Z0) (x - Z0)) (x + Z0) (max x Z0 + Ideal.log1p (Ideal.exp (Z0 - max (x - Z0) (-(x - Z0))))) = _
  have h0 : Ideal.cmp .one (x - Z0) (x - Z0) = 0#1 := by simp [Ideal.cmp]
  rw [h0, select_zero]
  show max x (Ideal.ofBits .f32 0x00000000#32) + Ideal.log1p (Ideal.exp (Ideal.ofBits .f32 0x00000000#32 - max (x - Ideal.ofBits .f32 0x00000000#32) (-(x - Ideal.ofBits .f32 0x00000000#32)))) = _
  rw [Ideal.ofBits_zero_f32]

/-- The bone lengths. -/
def lenv : FVec Ideal S2048x23 .f32 :=
  let x := logLen Q
  let z : FVec Ideal S2048x23 .f32 := broadcast S2048x23 (Scalar.ofBits (F := Ideal) .f32 0x00000000#32)
  select (cmpf .one (subf x z) (subf x z)) (addf x z) (addf (maximumf x z) (log1p (exp (subf z (absf (subf x z))))))

theorem lenv_apply (p : Fin 2048) (a : Fin 23) :
    lenv Q (ix2 p a) = Spec.len (fun a e => Q (ix3 p a e)) a := by
  have h : lenv Q (ix2 p a) = softplusK (logLen Q (ix2 p a)) := rfl
  rw [h, logLen_apply, softplusK_eq]
  rfl

end head

/-- The body's direction and length payloads are these functions of its regrouped second-layer output. -/
theorem pay12_eq (v0 : Vec Ideal S2048x1024 .f32) (v2 : Vec Ideal S1024x512 .f32) (v5 : Vec Ideal S512 .f32)
    (v12 : Vec Ideal S512x92 .f32) (v15 : Vec Ideal S92 .f32) :
    k0_pay12 v0 v2 v5 v12 v15 = dirv (k0_pay11 v0 v2 v5 v12 v15) := rfl
theorem pay13_eq (v0 : Vec Ideal S2048x1024 .f32) (v2 : Vec Ideal S1024x512 .f32) (v5 : Vec Ideal S512 .f32)
    (v12 : Vec Ideal S512x92 .f32) (v15 : Vec Ideal S92 .f32) :
    k0_pay13 v0 v2 v5 v12 v15 = lenv (k0_pay11 v0 v2 v5 v12 v15) := rfl

section tree
variable (A : FVec Ideal S2048x23x3 .f32) (B : FVec Ideal S2048x23 .f32)

theorem pay14_eq : k0_pay14 A B = concatenate S2048x24x3 1 [⟨S2048x1x3, broadcast S2048x1x3 (Scalar.ofBits (F := Ideal) .f32 0x00000000#32)⟩,
    ⟨S2048x23x3, mulf A (broadcastTo S2048x23x3 (shapeCast S2048x23x1 B shapeCasts_S2048x23_S2048x23x1) broadcasts_S2048x23x1_S2048x23x3)⟩]
    concatenates_S2048x1x3_S2048x23x3_S2048x24x3_d1 := rfl

/-- The root's offset row is the zero row. -/
theorem off_root (p : Fin 2048) (d : Fin 3) : k0_pay14 A B (ix3 p (0 : Fin 24) d) = Z0 := by
  rw [pay14_eq]
  exact concatenate_pair_apply_left (t := S2048x24x3) (s₁ := S2048x1x3) (s₂ := S2048x23x3) (1 : Fin 3) _ _ _ (ix3 p (0 : Fin 24) d) rfl (ix3 p (0 : Fin 1) d)
    (fun b => by match b with | ⟨0, _⟩ => rfl | ⟨1, _⟩ => rfl | ⟨2, _⟩ => rfl)

/-- Joint `j ≥ 1`'s offset row is bone `j - 1`'s direction times its length. -/
theorem off_bone (p : Fin 2048) (j : Fin 24) (hj : ¬ j.val = 0) (d : Fin 3) :
    k0_pay14 A B (ix3 p j d)
      = A (ix3 p ⟨j.val - 1, by have := j.isLt; omega⟩ d) * B (ix2 p ⟨j.val - 1, by have := j.isLt; omega⟩) := by
  rw [pay14_eq]
  refine (concatenate_pair_apply_right (t := S2048x24x3) (s₁ := S2048x1x3) (s₂ := S2048x23x3) (1 : Fin 3) _ _ _ (ix3 p j d) rfl rfl
    (ix3 p (⟨j.val - 1, by have := j.isLt; omega⟩ : Fin 23) d) (fun b hb => ?_) ?_).trans ?_
  · match b with
    | ⟨0, _⟩ => rfl
    | ⟨1, _⟩ => exact absurd rfl hb
    | ⟨2, _⟩ => rfl
  · show j.val - 1 + 1 = j.val
    omega
  · rw [mulf_apply]
    refine congrArg (A _ * ·) ?_
    exact (broadcastTo_apply _ _ (ix3 p (⟨j.val - 1, by have := j.isLt; omega⟩ : Fin 23) d) (ix3 p (⟨j.val - 1, by have := j.isLt; omega⟩ : Fin 23) (0 : Fin 1))
      (fun ax => by match ax with | ⟨0, _⟩ => rfl | ⟨1, _⟩ => rfl | ⟨2, _⟩ => rfl)).trans
      (shapeCast_apply _ _ (ix3 p (⟨j.val - 1, by have := j.isLt; omega⟩ : Fin 23) (0 : Fin 1)) (ix2 p (⟨j.val - 1, by have := j.isLt; omega⟩ : Fin 23)) (by
        rw [Shape.rowMajor_val_two, Shape.rowMajor_val_three]
        show p.val * 23 + (j.val - 1) = (p.val * 23 + (j.val - 1)) * 1 + 0
        omega))

/-- The offsets at `(p, j, d)` are the specification's, once row `p` of `A` and `B` are its directions and lengths. -/
theorem off_apply (q : Fin 23 → Fin 4 → EReal) (p : Fin 2048)
    (hA : ∀ a d, A (ix3 p a d) = Spec.dir q a d) (hB : ∀ a, B (ix2 p a) = Spec.len q a) (j : Fin 24) (d : Fin 3) :
    k0_pay14 A B (ix3 p j d) = Spec.off q j d := by
  unfold Spec.off
  by_cases h : j.val = 0
  · rw [dif_pos h]
    have hj : j = 0 := Fin.ext h
    subst hj
    exact (off_root A B p d).trans Ideal.ofBits_zero_f32
  · rw [dif_neg h, off_bone A B p j h d, hA, hB]

/-- One step of the tree walk: a parent's vector plus row `n` of the offsets, at `(p, d)`. -/
theorem step (n : Nat) (hn : n < 24) (h : S2048x24x3.Slices ![0, n, 0] S2048x1x3) (par : FVec Ideal S2048x3 .f32)
    (O : FVec Ideal S2048x24x3 .f32) (p : Fin 2048) (d : Fin 3) :
    addf par (shapeCast S2048x3 (extractStridedSlice S2048x1x3 ![0, n, 0] O h) shapeCasts_S2048x1x3_S2048x3) (ix2 p d)
      = par (ix2 p d) + O (ix3 p ⟨n, hn⟩ d) := by
  rw [addf_apply]
  refine congrArg (par (ix2 p d) + ·) ?_
  refine (shapeCast_apply _ _ (ix2 p d) (ix3 p (0 : Fin 1) d) ?_).trans (slice3_axis1_apply n O h p 0 d ⟨n, hn⟩ rfl)
  rw [Shape.rowMajor_val_three, Shape.rowMajor_val_two]
  show (p.val * 1 + 0) * 3 + d.val = p.val * 3 + d.val
  omega

/-- The 24 position vectors as the body names them, by joint. -/
def jointVec : Fin 24 → FVec Ideal S2048x3 .f32
  | ⟨0, _⟩ => k0_pay15 (F := Ideal)
  | ⟨1, _⟩ => k0_pay16 A B
  | ⟨2, _⟩ => k0_pay17 A B
  | ⟨3, _⟩ => k0_pay18 A B
  | ⟨4, _⟩ => k0_pay19 A B
  | ⟨5, _⟩ => k0_pay20 A B
  | ⟨6, _⟩ => k0_pay21 A B
  | ⟨7, _⟩ => k0_pay22 A B
  | ⟨8, _⟩ => k0_pay23 A B
  | ⟨9, _⟩ => k0_pay24 A B
  | ⟨10, _⟩ => k0_pay25 A B
  | ⟨11, _⟩ => k0_pay26 A B
  | ⟨12, _⟩ => k0_pay27 A B
  | ⟨13, _⟩ => k0_pay28 A B
  | ⟨14, _⟩ => k0_pay29 A B
  | ⟨15, _⟩ => k0_pay1 (k0_pay27 A B) (k0_pay30 A B)
  | ⟨16, _⟩ => k0_pay2 (k0_pay14 A B) (k0_pay28 A B)
  | ⟨17, _⟩ => k0_pay3 (k0_pay14 A B) (k0_pay29 A B)
  | ⟨18, _⟩ => k0_pay4 (k0_pay14 A B) (k0_pay2 (k0_pay14 A B) (k0_pay28 A B))
  | ⟨19, _⟩ => k0_pay5 (k0_pay14 A B) (k0_pay3 (k0_pay14 A B) (k0_pay29 A B))
  | ⟨20, _⟩ => k0_pay6 (k0_pay14 A B) (k0_pay4 (k0_pay14 A B) (k0_pay2 (k0_pay14 A B) (k0_pay28 A B)))
  | ⟨21, _⟩ => k0_pay7 (k0_pay14 A B) (k0_pay5 (k0_pay14 A B) (k0_pay3 (k0_pay14 A B) (k0_pay29 A B)))
  | ⟨22, _⟩ => k0_pay8 (k0_pay14 A B) (k0_pay6 (k0_pay14 A B) (k0_pay4 (k0_pay14 A B) (k0_pay2 (k0_pay14 A B) (k0_pay28 A B))))
  | ⟨23, _⟩ => k0_pay9 (k0_pay14 A B) (k0_pay7 (k0_pay14 A B) (k0_pay5 (k0_pay14 A B) (k0_pay3 (k0_pay14 A B) (k0_pay29 A B))))
  | ⟨n + 24, h⟩ => absurd h (by omega)

variable (p : Fin 2048) (d : Fin 3)

theorem pos0 : jointVec A B 0 (ix2 p d) = Spec.pos Z0 (fun a => k0_pay14 A B (ix3 p a d)) 0 := rfl
theorem pos1 : jointVec A B 1 (ix2 p d) = Spec.pos Z0 (fun a => k0_pay14 A B (ix3 p a d)) 1 :=
  (step 1 (by omega) slices_S2048x24x3_o0_1_0_S2048x1x3 (jointVec A B 0) (k0_pay14 A B) p d).trans
    (congrArg (· + k0_pay14 A B (ix3 p ⟨1, by omega⟩ d)) (pos0 A B p d))
theorem pos2 : jointVec A B 2 (ix2 p d) = Spec.pos Z0 (fun a => k0_pay14 A B (ix3 p a d)) 2 :=
  (step 2 (by omega) slices_S2048x24x3_o0_2_0_S2048x1x3 (jointVec A B 0) (k0_pay14 A B) p d).trans
    (congrArg (· + k0_pay14 A B (ix3 p ⟨2, by omega⟩ d)) (pos0 A B p d))
theorem pos3 : jointVec A B 3 (ix2 p d) = Spec.pos Z0 (fun a => k0_pay14 A B (ix3 p a d)) 3 :=
  (step 3 (by omega) slices_S2048x24x3_o0_3_0_S2048x1x3 (jointVec A B 0) (k0_pay14 A B) p d).trans
    (congrArg (· + k0_pay14 A B (ix3 p ⟨3, by omega⟩ d)) (pos0 A B p d))
theorem pos4 : jointVec A B 4 (ix2 p d) = Spec.pos Z0 (fun a => k0_pay14 A B (ix3 p a d)) 4 :=
  (step 4 (by omega) slices_S2048x24x3_o0_4_0_S2048x1x3 (jointVec A B 1) (k0_pay14 A B) p d).trans
    (congrArg (· + k0_pay14 A B (ix3 p ⟨4, by omega⟩ d)) (pos1 A B p d))
theorem pos5 : jointVec A B 5 (ix2 p d) = Spec.pos Z0 (fun a => k0_pay14 A B (ix3 p a d)) 5 :=
  (step 5 (by omega) slices_S2048x24x3_o0_5_0_S2048x1x3 (jointVec A B 2) (k0_pay14 A B) p d).trans
    (congrArg (· + k0_pay14 A B (ix3 p ⟨5, by omega⟩ d)) (pos2 A B p d))
theorem pos6 : jointVec A B 6 (ix2 p d) = Spec.pos Z0 (fun a => k0_pay14 A B (ix3 p a d)) 6 :=
  (step 6 (by omega) slices_S2048x24x3_o0_6_0_S2048x1x3 (jointVec A B 3) (k0_pay14 A B) p d).trans
    (congrArg (· + k0_pay14 A B (ix3 p ⟨6, by omega⟩ d)) (pos3 A B p d))
theorem pos7 : jointVec A B 7 (ix2 p d) = Spec.pos Z0 (fun a => k0_pay14 A B (ix3 p a d)) 7 :=
  (step 7 (by omega) slices_S2048x24x3_o0_7_0_S2048x1x3 (jointVec A B 4) (k0_pay14 A B) p d).trans
    (congrArg (· + k0_pay14 A B (ix3 p ⟨7, by omega⟩ d)) (pos4 A B p d))
theorem pos8 : jointVec A B 8 (ix2 p d) = Spec.pos Z0 (fun a => k0_pay14 A B (ix3 p a d)) 8 :=
  (step 8 (by omega) slices_S2048x24x3_o0_8_0_S2048x1x3 (jointVec A B 5) (k0_pay14 A B) p d).trans
    (congrArg (· + k0_pay14 A B (ix3 p ⟨8, by omega⟩ d)) (pos5 A B p d))
theorem pos9 : jointVec A B 9 (ix2 p d) = Spec.pos Z0 (fun a => k0_pay14 A B (ix3 p a d)) 9 :=
  (step 9 (by omega) slices_S2048x24x3_o0_9_0_S2048x1x3 (jointVec A B 6) (k0_pay14 A B) p d).trans
    (congrArg (· + k0_pay14 A B (ix3 p ⟨9, by omega⟩ d)) (pos6 A B p d))
theorem pos10 : jointVec A B 10 (ix2 p d) = Spec.pos Z0 (fun a => k0_pay14 A B (ix3 p a d)) 10 :=
  (step 10 (by omega) slices_S2048x24x3_o0_10_0_S2048x1x3 (jointVec A B 7) (k0_pay14 A B) p d).trans
    (congrArg (· + k0_pay14 A B (ix3 p ⟨10, by omega⟩ d)) (pos7 A B p d))
theorem pos11 : jointVec A B 11 (ix2 p d) = Spec.pos Z0 (fun a => k0_pay14 A B (ix3 p a d)) 11 :=
  (step 11 (by omega) slices_S2048x24x3_o0_11_0_S2048x1x3 (jointVec A B 8) (k0_pay14 A B) p d).trans
    (congrArg (· + k0_pay14 A B (ix3 p ⟨11, by omega⟩ d)) (pos8 A B p d))
theorem pos12 : jointVec A B 12 (ix2 p d) = Spec.pos Z0 (fun a => k0_pay14 A B (ix3 p a d)) 12 :=
  (step 12 (by omega) slices_S2048x24x3_o0_12_0_S2048x1x3 (jointVec A B 9) (k0_pay14 A B) p d).trans
    (congrArg (· + k0_pay14 A B (ix3 p ⟨12, by omega⟩ d)) (pos9 A B p d))
theorem pos13 : jointVec A B 13 (ix2 p d) = Spec.pos Z0 (fun a => k0_pay14 A B (ix3 p a d)) 13 :=
  (step 13 (by omega) slices_S2048x24x3_o0_13_0_S2048x1x3 (jointVec A B 9) (k0_pay14 A B) p d).trans
    (congrArg (· + k0_pay14 A B (ix3 p ⟨13, by omega⟩ d)) (pos9 A B p d))
theorem pos14 : jointVec A B 14 (ix2 p d) = Spec.pos Z0 (fun a => k0_pay14 A B (ix3 p a d)) 14 :=
  (step 14 (by omega) slices_S2048x24x3_o0_14_0_S2048x1x3 (jointVec A B 9) (k0_pay14 A B) p d).trans
    (congrArg (· + k0_pay14 A B (ix3 p ⟨14, by omega⟩ d)) (pos9 A B p d))
theorem pos15 : jointVec A B 15 (ix2 p d) = Spec.pos Z0 (fun a => k0_pay14 A B (ix3 p a d)) 15 :=
  (step 15 (by omega) slices_S2048x24x3_o0_15_0_S2048x1x3 (jointVec A B 12) (k0_pay14 A B) p d).trans
    (congrArg (· + k0_pay14 A B (ix3 p ⟨15, by omega⟩ d)) (pos12 A B p d))
theorem pos16 : jointVec A B 16 (ix2 p d) = Spec.pos Z0 (fun a => k0_pay14 A B (ix3 p a d)) 16 :=
  (step 16 (by omega) slices_S2048x24x3_o0_16_0_S2048x1x3 (jointVec A B 13) (k0_pay14 A B) p d).trans
    (congrArg (· + k0_pay14 A B (ix3 p ⟨16, by omega⟩ d)) (pos13 A B p d))
theorem pos17 : jointVec A B 17 (ix2 p d) = Spec.pos Z0 (fun a => k0_pay14 A B (ix3 p a d)) 17 :=
  (step 17 (by omega) slices_S2048x24x3_o0_17_0_S2048x1x3 (jointVec A B 14) (k0_pay14 A B) p d).trans
    (congrArg (· + k0_pay14 A B (ix3 p ⟨17, by omega⟩ d)) (pos14 A B p d))
theorem pos18 : jointVec A B 18 (ix2 p d) = Spec.pos Z0 (fun a => k0_pay14 A B (ix3 p a d)) 18 :=
  (step 18 (by omega) slices_S2048x24x3_o0_18_0_S2048x1x3 (jointVec A B 16) (k0_pay14 A B) p d).trans
    (congrArg (· + k0_pay14 A B (ix3 p ⟨18, by omega⟩ d)) (pos16 A B p d))
theorem pos19 : jointVec A B 19 (ix2 p d) = Spec.pos Z0 (fun a => k0_pay14 A B (ix3 p a d)) 19 :=
  (step 19 (by omega) slices_S2048x24x3_o0_19_0_S2048x1x3 (jointVec A B 17) (k0_pay14 A B) p d).trans
    (congrArg (· + k0_pay14 A B (ix3 p ⟨19, by omega⟩ d)) (pos17 A B p d))
theorem pos20 : jointVec A B 20 (ix2 p d) = Spec.pos Z0 (fun a => k0_pay14 A B (ix3 p a d)) 20 :=
  (step 20 (by omega) slices_S2048x24x3_o0_20_0_S2048x1x3 (jointVec A B 18) (k0_pay14 A B) p d).trans
    (congrArg (· + k0_pay14 A B (ix3 p ⟨20, by omega⟩ d)) (pos18 A B p d))
theorem pos21 : jointVec A B 21 (ix2 p d) = Spec.pos Z0 (fun a => k0_pay14 A B (ix3 p a d)) 21 :=
  (step 21 (by omega) slices_S2048x24x3_o0_21_0_S2048x1x3 (jointVec A B 19) (k0_pay14 A B) p d).trans
    (congrArg (· + k0_pay14 A B (ix3 p ⟨21, by omega⟩ d)) (pos19 A B p d))
theorem pos22 : jointVec A B 22 (ix2 p d) = Spec.pos Z0 (fun a => k0_pay14 A B (ix3 p a d)) 22 :=
  (step 22 (by omega) slices_S2048x24x3_o0_22_0_S2048x1x3 (jointVec A B 20) (k0_pay14 A B) p d).trans
    (congrArg (· + k0_pay14 A B (ix3 p ⟨22, by omega⟩ d)) (pos20 A B p d))
theorem pos23 : jointVec A B 23 (ix2 p d) = Spec.pos Z0 (fun a => k0_pay14 A B (ix3 p a d)) 23 :=
  (step 23 (by omega) slices_S2048x24x3_o0_23_0_S2048x1x3 (jointVec A B 21) (k0_pay14 A B) p d).trans
    (congrArg (· + k0_pay14 A B (ix3 p ⟨23, by omega⟩ d)) (pos21 A B p d))

/-- Every position vector at `(p, d)` is the tree sum of the offsets' rows at `(p, ·, d)`. -/
theorem pos_all (j : Fin 24) : jointVec A B j (ix2 p d) = Spec.pos Z0 (fun a => k0_pay14 A B (ix3 p a d)) j :=
  match j with
  | ⟨0, _⟩ => pos0 A B p d
  | ⟨1, _⟩ => pos1 A B p d
  | ⟨2, _⟩ => pos2 A B p d
  | ⟨3, _⟩ => pos3 A B p d
  | ⟨4, _⟩ => pos4 A B p d
  | ⟨5, _⟩ => pos5 A B p d
  | ⟨6, _⟩ => pos6 A B p d
  | ⟨7, _⟩ => pos7 A B p d
  | ⟨8, _⟩ => pos8 A B p d
  | ⟨9, _⟩ => pos9 A B p d
  | ⟨10, _⟩ => pos10 A B p d
  | ⟨11, _⟩ => pos11 A B p d
  | ⟨12, _⟩ => pos12 A B p d
  | ⟨13, _⟩ => pos13 A B p d
  | ⟨14, _⟩ => pos14 A B p d
  | ⟨15, _⟩ => pos15 A B p d
  | ⟨16, _⟩ => pos16 A B p d
  | ⟨17, _⟩ => pos17 A B p d
  | ⟨18, _⟩ => pos18 A B p d
  | ⟨19, _⟩ => pos19 A B p d
  | ⟨20, _⟩ => pos20 A B p d
  | ⟨21, _⟩ => pos21 A B p d
  | ⟨22, _⟩ => pos22 A B p d
  | ⟨23, _⟩ => pos23 A B p d
  | ⟨n + 24, h⟩ => absurd h (by omega)

end tree

/-- Twenty-four [2048, 3] vectors stacked along a new middle axis, at `(p, j, d)`: vector `j` at `(p, d)`. -/
theorem stack_apply (J : Fin 24 → FVec Ideal S2048x3 .f32) (p : Fin 2048) (j : Fin 24) (d : Fin 3) :
    k0_pay10 (J 0) (J 1) (J 2) (J 3) (J 4) (J 5) (J 6) (J 7) (J 8) (J 9) (J 10) (J 11) (J 12) (J 13) (J 14) (J 15) (J 16) (J 17) (J 18)
      (J 19) (J 20) (J 21) (J 22) (J 23) (ix3 p j d) = J j (ix2 p d) := by
  show concatenate S2048x24x3 1 (List.ofFn fun n : Fin 24 =>
    (⟨S2048x1x3, shapeCast S2048x1x3 (J n) shapeCasts_S2048x3_S2048x1x3⟩ : (s : Shape) × (s.Idx → _)))
    concatenates_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x1x3_S2048x24x3_d1 (ix3 p j d) = _
  refine (concatenate_ofFn_unit_apply (t := S2048x24x3) (s₁ := S2048x1x3) (1 : Fin 3)
    (fun n => shapeCast S2048x1x3 (J n) shapeCasts_S2048x3_S2048x1x3) _ rfl rfl (ix3 p j d) j rfl (ix3 p (0 : Fin 1) d)
    (fun b hb => ?_)).trans ?_
  · match b with
    | ⟨0, _⟩ => rfl
    | ⟨1, _⟩ => exact absurd rfl hb
    | ⟨2, _⟩ => rfl
  · exact shapeCast_apply _ _ (ix3 p (0 : Fin 1) d) (ix2 p d) (by
      rw [Shape.rowMajor_val_two, Shape.rowMajor_val_three]
      show p.val * 3 + d.val = (p.val * 1 + 0) * 3 + d.val
      omega)

end Cert.KernelIdeal.Body

end
-- ==== Proof.KernelArrays.lean ====
/-
  From blocks to whole arrays.

  The grid has 16 points; point `t` works on rows `2048·t … 2048·t + 2047` of the batch.  Its latent block is those rows
  of the latent array, the weight and bias windows are the whole arrays at every point, and each of the three output
  blocks is the same rows of its output array.  Since every output entry depends on its own batch row only, what point
  `t` writes back is block `t` of one whole-array function of the arguments (the specification's `joints`, `offsets`,
  `lengths`); the 16 blocks tile each output array, so after the run each output array is that function.
-/
import proofs.«106758_j18236431139314_1_alg».proof.Proof.KernelHead
import proofs.«106758_j18236431139314_1_alg».proof.Proof.KernelValueP

noncomputable section

namespace Cert.KernelIdeal.Arrays

open Cert.KernelIdeal Cert.KernelIdeal.Gen Cert.KernelIdeal.Body Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in each output block, entry by entry -/

section body
variable (x0 : Vec Ideal S2048x1024 .f32) (x1 : Vec Ideal S1024x512 .f32) (x2 : Vec Ideal S512 .f32)
  (x3 : Vec Ideal S512x92 .f32) (x4 : Vec Ideal S92 .f32) (p : Fin 2048)

theorem row_dir (a : Fin 23) (d : Fin 3) :
    k0_pay12 x0 x1 x2 x3 x4 (ix3 p a d) = Spec.dir (Spec.groups (fun k => x0 (ix2 p k)) x1 x2 x3 x4) a d := by
  rw [pay12_eq, dirv_apply]
  exact congrArg (fun q => Spec.dir q a d) (funext fun a' => funext fun e => groups_apply x0 x1 x2 x3 x4 p a' e)

theorem row_len (a : Fin 23) :
    k0_pay13 x0 x1 x2 x3 x4 (ix2 p a) = Spec.len (Spec.groups (fun k => x0 (ix2 p k)) x1 x2 x3 x4) a := by
  rw [pay13_eq, lenv_apply]
  exact congrArg (fun q => Spec.len q a) (funext fun a' => funext fun e => groups_apply x0 x1 x2 x3 x4 p a' e)

theorem body_len (a : Fin 23) :
    out0_7 x0 x1 x2 x3 x4 (ix2 p a) = Spec.len (Spec.groups (fun k => x0 (ix2 p k)) x1 x2 x3 x4) a := by
  unfold out0_7
  rw [View.canon_unit_zero hz2]
  simp only [View.ld_unit_zero (S := S2048x1024) hz2, View.ld_unit_zero (S := S1024x512) hz2, View.ld_unit_zero (S := S512) hz1,
    View.ld_unit_zero (S := S512x92) hz2, View.ld_unit_zero (S := S92) hz1]
  exact row_len x0 x1 x2 x3 x4 p a

theorem body_off (j : Fin 24) (d : Fin 3) :
    out0_6 x0 x1 x2 x3 x4 (ix3 p j d) = Spec.off (Spec.groups (fun k => x0 (ix2 p k)) x1 x2 x3 x4) j d := by
  unfold out0_6
  rw [View.canon_unit_zero hz3]
  simp only [View.ld_unit_zero (S := S2048x1024) hz2, View.ld_unit_zero (S := S1024x512) hz2, View.ld_unit_zero (S := S512) hz1,
    View.ld_unit_zero (S := S512x92) hz2, View.ld_unit_zero (S := S92) hz1]
  exact off_apply _ _ _ p (row_dir x0 x1 x2 x3 x4 p) (row_len x0 x1 x2 x3 x4 p) j d

theorem body_pos (j : Fin 24) (d : Fin 3) :
    out0_5 x0 x1 x2 x3 x4 (ix3 p j d)
      = Spec.pos 0 (fun a => Spec.off (Spec.groups (fun k => x0 (ix2 p k)) x1 x2 x3 x4) a d) j := by
  unfold out0_5
  rw [View.canon_unit_zero hz3]
  simp only [View.ld_unit_zero (S := S2048x1024) hz2, View.ld_unit_zero (S := S1024x512) hz2, View.ld_unit_zero (S := S512) hz1,
    View.ld_unit_zero (S := S512x92) hz2, View.ld_unit_zero (S := S92) hz1]
  refine (stack_apply (jointVec (k0_pay12 x0 x1 x2 x3 x4) (k0_pay13 x0 x1 x2 x3 x4)) p j d).trans ?_
  refine (pos_all _ _ p d j).trans ?_
  show Spec.pos (Ideal.ofBits .f32 0x00000000#32) _ j = _
  rw [Ideal.ofBits_zero_f32]
  exact congrArg (fun o => Spec.pos 0 o j)
    (funext fun a => off_apply _ _ _ p (row_dir x0 x1 x2 x3 x4 p) (row_len x0 x1 x2 x3 x4 p) a d)

end body

/-! ## The windows' blocks -/

/-- The printed index maps over the 16 grid points: the latent window and the three output windows are at block `t`
    along the batch axis and block 0 elsewhere; the weight and bias windows are at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 2) = t.val ∧ win0_7.index t (1 : Fin 2) = 0 :=
  (by decide +kernel : ∀ t : Fin grid0.N, _)

theorem t_lt (t : Fin cfg0.N) : t.val < 16 := lt_of_lt_of_eq t.isLt N_0

/-- The batch row that row `p` of point `t`'s blocks is. -/
def rowOf (t : Fin cfg0.N) (p : Fin 2048) : Fin 32768 :=
  ⟨t.val * 2048 + p.val, by have := t_lt t; have := p.isLt; omega⟩

theorem in_z (c : Dev nD) (t : Fin cfg0.N) (p : Fin 2048) (k : Fin 1024) :
    iblk m c 0 t (ix2 p k) = V m c main_arg0 (ix2 (rowOf t p) k) := by
  obtain ⟨f00, f01, -⟩ := idx_facts t
  show V m c main_arg0 (((cfg0.win 0).blk t).view.emb (ix2 p k)) = V m c main_arg0 (ix2 (rowOf t p) k)
  refine congrArg (V m c main_arg0) (funext fun a => Fin.ext ?_)
  exact match a with
    | ⟨0, _⟩ => by show win0_0.index t (0 : Fin 2) * 2048 + 1 * p.val = t.val * 2048 + p.val; omega
    | ⟨1, _⟩ => by show win0_0.index t (1 : Fin 2) * 1024 + 1 * k.val = k.val; omega

theorem in_w1 (c : Dev nD) (t : Fin cfg0.N) (y : S1024x512.Idx) : iblk m c 1 t y = V m c main_arg1 y := by
  obtain ⟨-, -, f10, f11, f20, f30, f31, f40, -⟩ := idx_facts t
  show V m c main_arg1 (((cfg0.win 1).blk t).view.emb y) = V m c main_arg1 y
  refine congrArg (V m c main_arg1) (funext fun a => Fin.ext ?_)
  exact match a with
    | ⟨0, _⟩ => by show win0_1.index t (0 : Fin 2) * 1024 + 1 * (y 0).val = (y 0).val; omega
    | ⟨1, _⟩ => by show win0_1.index t (1 : Fin 2) * 512 + 1 * (y 1).val = (y 1).val; omega

theorem in_b1 (c : Dev nD) (t : Fin cfg0.N) (y : S512.Idx) : iblk m c 2 t y = V m c main_arg2 y := by
  obtain ⟨-, -, f10, f11, f20, f30, f31, f40, -⟩ := idx_facts t
  show V m c main_arg2 (((cfg0.win 2).blk t).view.emb y) = V m c main_arg2 y
  refine congrArg (V m c main_arg2) (funext fun a => Fin.ext ?_)
  exact match a with
    | ⟨0, _⟩ => by show win0_2.index t (0 : Fin 1) * 512 + 1 * (y 0).val = (y 0).val; omega

theorem in_w2 (c : Dev nD) (t : Fin cfg0.N) (y : S512x92.Idx) : iblk m c 3 t y = V m c main_arg3 y := by
  obtain ⟨-, -, f10, f11, f20, f30, f31, f40, -⟩ := idx_facts t
  show V m c main_arg3 (((cfg0.win 3).blk t).view.emb y) = V m c main_arg3 y
  refine congrArg (V m c main_arg3) (funext fun a => Fin.ext ?_)
  exact match a with
    | ⟨0, _⟩ => by show win0_3.index t (0 : Fin 2) * 512 + 1 * (y 0).val = (y 0).val; omega
    | ⟨1, _⟩ => by show win0_3.index t (1 : Fin 2) * 92 + 1 * (y 1).val = (y 1).val; omega

theorem in_b2 (c : Dev nD) (t : Fin cfg0.N) (y : S92.Idx) : iblk m c 4 t y = V m c main_arg4 y := by
  obtain ⟨-, -, f10, f11, f20, f30, f31, f40, -⟩ := idx_facts t
  show V m c main_arg4 (((cfg0.win 4).blk t).view.emb y) = V m c main_arg4 y
  refine congrArg (V m c main_arg4) (funext fun a => Fin.ext ?_)
  exact match a with
    | ⟨0, _⟩ => by show win0_4.index t (0 : Fin 1) * 92 + 1 * (y 0).val = (y 0).val; omega

/-- The specification's groups for row `p` of point `t`'s blocks are those of batch row `rowOf t p` of the arrays. -/
theorem groups_blk (c : Dev nD) (t : Fin cfg0.N) (p : Fin 2048) :
    Spec.groups (fun k => iblk m c 0 t (ix2 p k)) (iblk m c 1 t) (iblk m c 2 t) (iblk m c 3 t) (iblk m c 4 t)
      = Spec.groups (Spec.row (V m c main_arg0) (rowOf t p)) (V m c main_arg1) (V m c main_arg2) (V m c main_arg3) (V m c main_arg4) := by
  have e0 : (fun k => iblk m c 0 t (ix2 p k)) = Spec.row (V m c main_arg0) (rowOf t p) := funext fun k => in_z m c t p k
  have e1 : (iblk m c 1 t : S1024x512.Idx → EReal) = V m c main_arg1 := funext (in_w1 m c t)
  have e2 : (iblk m c 2 t : S512.Idx → EReal) = V m c main_arg2 := funext (in_b1 m c t)
  have e3 : (iblk m c 3 t : S512x92.Idx → EReal) = V m c main_arg3 := funext (in_w2 m c t)
  have e4 : (iblk m c 4 t : S92.Idx → EReal) = V m c main_arg4 := funext (in_b2 m c t)
  exact e0 ▸ e1 ▸ e2 ▸ e3 ▸ e4 ▸ rfl

/-! ## What each point writes back, and the arrays after the run -/

theorem emb5 (t : Fin cfg0.N) (p : Fin 2048) (j : Fin 24) (d : Fin 3) :
    (((cfg0.win 5).blk t).view.emb (ix3 p j d) : S32768x24x3.Idx) = ix3 (rowOf t p) j d := by
  obtain ⟨-, -, -, -, -, -, -, -, f50, f51, f52, -⟩ := idx_facts t
  funext a; apply Fin.ext
  exact match a with
    | ⟨0, _⟩ => by show win0_5.index t (0 : Fin 3) * 2048 + 1 * p.val = t.val * 2048 + p.val; omega
    | ⟨1, _⟩ => by show win0_5.index t (1 : Fin 3) * 24 + 1 * j.val = j.val; omega
    | ⟨2, _⟩ => by show win0_5.index t (2 : Fin 3) * 3 + 1 * d.val = d.val; omega

theorem emb6 (t : Fin cfg0.N) (p : Fin 2048) (j : Fin 24) (d : Fin 3) :
    (((cfg0.win 6).blk t).view.emb (ix3 p j d) : S32768x24x3.Idx) = ix3 (rowOf t p) j d := by
  obtain ⟨-, -, -, -, -, -, -, -, -, -, -, f60, f61, f62, -⟩ := idx_facts t
  funext a; apply Fin.ext
  exact match a with
    | ⟨0, _⟩ => by show win0_6.index t (0 : Fin 3) * 2048 + 1 * p.val = t.val * 2048 + p.val; omega
    | ⟨1, _⟩ => by show win0_6.index t (1 : Fin 3) * 24 + 1 * j.val = j.val; omega
    | ⟨2, _⟩ => by show win0_6.index t (2 : Fin 3) * 3 + 1 * d.val = d.val; omega

theorem emb7 (t : Fin cfg0.N) (p : Fin 2048) (a : Fin 23) :
    (((cfg0.win 7).blk t).view.emb (ix2 p a) : S32768x23.Idx) = ix2 (rowOf t p) a := by
  obtain ⟨-, -, -, -, -, -, -, -, -, -, -, -, -, -, f70, f71⟩ := idx_facts t
  funext ax; apply Fin.ext
  exact match ax with
    | ⟨0, _⟩ => by show win0_7.index t (0 : Fin 2) * 2048 + 1 * p.val = t.val * 2048 + p.val; omega
    | ⟨1, _⟩ => by show win0_7.index t (1 : Fin 2) * 23 + 1 * a.val = a.val; omega

section arrays
variable (c : Dev nD)

/-- Point `t` writes back block `t` of the joint positions. -/
theorem flushed5_eq (t : Fin cfg0.N) :
    (dats m 0 c).flushed 5 t = ((cfg0.win 5).blk t).view.read (Elt Ideal)
      (Spec.joints (V m c main_arg0) (V m c main_arg1) (V m c main_arg2) (V m c main_arg3) (V m c main_arg4)) := by
  rw [ValueP.flushed5]
  funext y
  obtain ⟨p, j, d, rfl⟩ : ∃ (p : Fin 2048) (j : Fin 24) (d : Fin 3), y = ix3 p j d := ⟨y 0, y 1, y 2, eq_ix3 y⟩
  show out0_5 (iblk m c 0 t) (iblk m c 1 t) (iblk m c 2 t) (iblk m c 3 t) (iblk m c 4 t) (ix3 p j d)
    = Spec.joints (V m c main_arg0) (V m c main_arg1) (V m c main_arg2) (V m c main_arg3) (V m c main_arg4) (((cfg0.win 5).blk t).view.emb (ix3 p j d))
  rw [emb5]
  refine (body_pos _ _ _ _ _ p j d).trans ?_
  rw [groups_blk]
  rfl

/-- Point `t` writes back block `t` of the joint offsets. -/
theorem flushed6_eq (t : Fin cfg0.N) :
    (dats m 0 c).flushed 6 t = ((cfg0.win 6).blk t).view.read (Elt Ideal)
      (Spec.offsets (V m c main_arg0) (V m c main_arg1) (V m c main_arg2) (V m c main_arg3) (V m c main_arg4)) := by
  rw [ValueP.flushed6]
  funext y
  obtain ⟨p, j, d, rfl⟩ : ∃ (p : Fin 2048) (j : Fin 24) (d : Fin 3), y = ix3 p j d := ⟨y 0, y 1, y 2, eq_ix3 y⟩
  show out0_6 (iblk m c 0 t) (iblk m c 1 t) (iblk m c 2 t) (iblk m c 3 t) (iblk m c 4 t) (ix3 p j d)
    = Spec.offsets (V m c main_arg0) (V m c main_arg1) (V m c main_arg2) (V m c main_arg3) (V m c main_arg4) (((cfg0.win 6).blk t).view.emb (ix3 p j d))
  rw [emb6]
  refine (body_off _ _ _ _ _ p j d).trans ?_
  rw [groups_blk]
  rfl

/-- Point `t` writes back block `t` of the bone lengths. -/
theorem flushed7_eq (t : Fin cfg0.N) :
    (dats m 0 c).flushed 7 t = ((cfg0.win 7).blk t).view.read (Elt Ideal)
      (Spec.lengths (V m c main_arg0) (V m c main_arg1) (V m c main_arg2) (V m c main_arg3) (V m c main_arg4)) := by
  rw [ValueP.flushed7]
  funext y
  obtain ⟨p, a, rfl⟩ : ∃ (p : Fin 2048) (a : Fin 23), y = ix2 p a := ⟨y 0, y 1, eq_ix2 y⟩
  show out0_7 (iblk m c 0 t) (iblk m c 1 t) (iblk m c 2 t) (iblk m c 3 t) (iblk m c 4 t) (ix2 p a)
    = Spec.lengths (V m c main_arg0) (V m c main_arg1) (V m c main_arg2) (V m c main_arg3) (V m c main_arg4) (((cfg0.win 7).blk t).view.emb (ix2 p a))
  rw [emb7]
  refine (body_len _ _ _ _ _ p a).trans ?_
  rw [groups_blk]
  rfl

theorem mem_blk5 (t : Fin cfg0.N) (i : S32768x24x3.Idx) :
    i ∈ ((cfg0.win 5).blk t).view.set ↔ ∀ a : Fin 3, win0_5.index t a * S2048x24x3.size a ≤ (i a).val ∧ (i a).val < win0_5.index t a * S2048x24x3.size a + S2048x24x3.size a := by
  show i ∈ ((View.whole main_v0_0).slice (win0_5.rect t)).set ↔ _
  rw [View.set_slice_whole, Rect.mem_set_unit]
  exact Iff.rfl

theorem mem_blk6 (t : Fin cfg0.N) (i : S32768x24x3.Idx) :
    i ∈ ((cfg0.win 6).blk t).view.set ↔ ∀ a : Fin 3, win0_6.index t a * S2048x24x3.size a ≤ (i a).val ∧ (i a).val < win0_6.index t a * S2048x24x3.size a + S2048x24x3.size a := by
  show i ∈ ((View.whole main_v0_1).slice (win0_6.rect t)).set ↔ _
  rw [View.set_slice_whole, Rect.mem_set_unit]
  exact Iff.rfl

theorem mem_blk7 (t : Fin cfg0.N) (i : S32768x23.Idx) :
    i ∈ ((cfg0.win 7).blk t).view.set ↔ ∀ a : Fin 2, win0_7.index t a * S2048x23.size a ≤ (i a).val ∧ (i a).val < win0_7.index t a * S2048x23.size a + S2048x23.size a := by
  show i ∈ ((View.whole main_v0_2).slice (win0_7.rect t)).set ↔ _
  rw [View.set_slice_whole, Rect.mem_set_unit]
  exact Iff.rfl

/-- The point whose blocks hold batch row `r`: `r / 2048`. -/
def pointOf (r : Nat) (hr : r < 32768) : Fin cfg0.N := ⟨r / 2048, by rw [show cfg0.N = 16 from N_0]; omega⟩

theorem cover5 (i : S32768x24x3.Idx) : ∃ t : Fin cfg0.N, (cfg0.win 5).flush t = true ∧ i ∈ ((cfg0.win 5).blk t).view.set := by
  have hi0 : (i 0).val < 32768 := (i 0).isLt
  have hi1 : (i 1).val < 24 := (i 1).isLt
  have hi2 : (i 2).val < 3 := (i 2).isLt
  refine ⟨pointOf (i 0).val hi0, flush0_5 _, ?_⟩
  rw [mem_blk5]
  obtain ⟨-, -, -, -, -, -, -, -, f50, f51, f52, -⟩ := idx_facts (pointOf (i 0).val hi0)
  have ht : (pointOf (i 0).val hi0).val = (i 0).val / 2048 := rfl
  intro a
  exact match a with
    | ⟨0, _⟩ => by show win0_5.index _ (0 : Fin 3) * 2048 ≤ (i 0).val ∧ (i 0).val < win0_5.index _ (0 : Fin 3) * 2048 + 2048; omega
    | ⟨1, _⟩ => by show win0_5.index _ (1 : Fin 3) * 24 ≤ (i 1).val ∧ (i 1).val < win0_5.index _ (1 : Fin 3) * 24 + 24; omega
    | ⟨2, _⟩ => by show win0_5.index _ (2 : Fin 3) * 3 ≤ (i 2).val ∧ (i 2).val < win0_5.index _ (2 : Fin 3) * 3 + 3; omega

theorem cover6 (i : S32768x24x3.Idx) : ∃ t : Fin cfg0.N, (cfg0.win 6).flush t = true ∧ i ∈ ((cfg0.win 6).blk t).view.set := by
  have hi0 : (i 0).val < 32768 := (i 0).isLt
  have hi1 : (i 1).val < 24 := (i 1).isLt
  have hi2 : (i 2).val < 3 := (i 2).isLt
  refine ⟨pointOf (i 0).val hi0, flush0_6 _, ?_⟩
  rw [mem_blk6]
  obtain ⟨-, -, -, -, -, -, -, -, -, -, -, f60, f61, f62, -⟩ := idx_facts (pointOf (i 0).val hi0)
  have ht : (pointOf (i 0).val hi0).val = (i 0).val / 2048 := rfl
  intro a
  exact match a with
    | ⟨0, _⟩ => by show win0_6.index _ (0 : Fin 3) * 2048 ≤ (i 0).val ∧ (i 0).val < win0_6.index _ (0 : Fin 3) * 2048 + 2048; omega
    | ⟨1, _⟩ => by show win0_6.index _ (1 : Fin 3) * 24 ≤ (i 1).val ∧ (i 1).val < win0_6.index _ (1 : Fin 3) * 24 + 24; omega
    | ⟨2, _⟩ => by show win0_6.index _ (2 : Fin 3) * 3 ≤ (i 2).val ∧ (i 2).val < win0_6.index _ (2 : Fin 3) * 3 + 3; omega

theorem cover7 (i : S32768x23.Idx) : ∃ t : Fin cfg0.N, (cfg0.win 7).flush t = true ∧ i ∈ ((cfg0.win 7).blk t).view.set := by
  have hi0 : (i 0).val < 32768 := (i 0).isLt
  have hi1 : (i 1).val < 23 := (i 1).isLt
  refine ⟨pointOf (i 0).val hi0, flush0_7 _, ?_⟩
  rw [mem_blk7]
  obtain ⟨-, -, -, -, -, -, -, -, -, -, -, -, -, -, f70, f71⟩ := idx_facts (pointOf (i 0).val hi0)
  have ht : (pointOf (i 0).val hi0).val = (i 0).val / 2048 := rfl
  intro a
  exact match a with
    | ⟨0, _⟩ => by show win0_7.index _ (0 : Fin 2) * 2048 ≤ (i 0).val ∧ (i 0).val < win0_7.index _ (0 : Fin 2) * 2048 + 2048; omega
    | ⟨1, _⟩ => by show win0_7.index _ (1 : Fin 2) * 23 ≤ (i 1).val ∧ (i 1).val < win0_7.index _ (1 : Fin 2) * 23 + 23; omega

theorem final5 : (dats m 0 c).arrAt 5 cfg0.N
    = Spec.joints (V m c main_arg0) (V m c main_arg1) (V m c main_arg2) (V m c main_arg3) (V m c main_arg4) :=
  (dats m 0 c).arrAt_eq_of_cover 5 _ (fun t _ => flushed5_eq m c t) cover5

theorem final6 : (dats m 0 c).arrAt 6 cfg0.N
    = Spec.offsets (V m c main_arg0) (V m c main_arg1) (V m c main_arg2) (V m c main_arg3) (V m c main_arg4) :=
  (dats m 0 c).arrAt_eq_of_cover 6 _ (fun t _ => flushed6_eq m c t) cover6

theorem final7 : (dats m 0 c).arrAt 7 cfg0.N
    = Spec.lengths (V m c main_arg0) (V m c main_arg1) (V m c main_arg2) (V m c main_arg3) (V m c main_arg4) :=
  (dats m 0 c).arrAt_eq_of_cover 7 _ (fun t _ => flushed7_eq m c t) cover7

end arrays

/-- The kernel's run: every weakly fair execution ends with the three result arrays at the specification's functions of the
    argument arrays, the arguments unchanged. -/
theorem run : θ_run defs (onTc (τ := τ) (main (F := Ideal))) ⟨m, fun _ => 0, ρ⟩ fun r => ∀ c : Dev nD,
      r.2.mem ((c : Thread nD τ).loc main_v0_0) = Spec.joints (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = Spec.offsets (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = Spec.lengths (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2⟩)
    (ValueP.run_blocks m ρ)

end Cert.KernelIdeal.Arrays

end
-- ==== Proof.ReferenceDense.lean ====
/-
  The reference program's two dense layers, read at one entry.

  The reference computes, for the whole batch at once, `z·W1 + b1`, the activation written out as
  `h · (1 / (1 + exp (-h)))`, then `·W2 + b2`, and regroups each row of 92 as 23 groups of 4.  On extended reals
  `1 / (1 + exp (-h))` is the logistic function, so entry `(r, a, e)` is the specification's group entry for batch row `r`.
-/
import proofs.«106758_j18236431139314_1_alg».proof.Proof.ReferenceReadP
import proofs.«106758_j18236431139314_1_alg».proof.Proof.Spec
import Idealize.ShloMosaic.Lib.ValueIdx
import Idealize.ShloMosaic.PureOps.Ideal.Laws

noncomputable section

namespace Cert.ReferenceIdeal.Body

open Cert.ReferenceIdeal Cert.ReferenceIdeal.ReadP Idealize.ShloMosaic Idealize.ShloMosaic.ValueIdx

/-- The word of single-precision one is the number one. -/
theorem one_f32 : Ideal.ofBits .f32 0x3F800000#32 = 1 := by
  simp [Ideal.ofBits, Ideal.ieee, -EReal.coe_mul]; norm_num

variable (x0 : (⟨S32768x1024, .f32⟩ : BufTy).Contents (Elt Ideal)) (x1 : (⟨S1024x512, .f32⟩ : BufTy).Contents (Elt Ideal))
  (x2 : (⟨S512, .f32⟩ : BufTy).Contents (Elt Ideal)) (x3 : (⟨S512x92, .f32⟩ : BufTy).Contents (Elt Ideal))
  (x4 : (⟨S92, .f32⟩ : BufTy).Contents (Elt Ideal))

theorem pre_apply (r : Fin 32768) (j : Fin 512) :
    val_main_v3 (F := Ideal) x0 x1 x2 (ix2 r j) = Spec.pre (Spec.row x0 r) x1 x2 j := by
  rw [val_main_v3_apply, val_main_v0_apply, val_main_v2_apply, val_main_v1_apply]
  unfold Spec.pre Spec.row
  show (∑ k : Fin 1024, x0 (lidx_main_v0 (ix2 r j) k) * x1 (ridx_main_v0 (ix2 r j) k)) + x2 (idx_main_v1 (idx_main_v2 (ix2 r j))) = _
  refine congrArg₂ (· + ·) (Finset.sum_congr rfl fun k _ => ?_) ?_
  · exact congrArg₂ (· * ·) (congrArg x0 (funext fun a => Fin.ext (by match a with | ⟨0, _⟩ => rfl | ⟨1, _⟩ => rfl))) (congrArg x1 (funext fun a => Fin.ext (by match a with | ⟨0, _⟩ => rfl | ⟨1, _⟩ => rfl)))
  · exact congrArg x2 (funext fun a => Fin.ext (by match a with | ⟨0, _⟩ => rfl))

theorem act_apply (r : Fin 32768) (j : Fin 512) :
    val_main_v4 (F := Ideal) x0 x1 x2 (ix2 r j) = Spec.act (Spec.pre (Spec.row x0 r) x1 x2 j) := by
  simp only [val_main_v4_apply, val_main_call0_v5_apply, val_main_call0_v4_apply, val_main_call0_cst_0_apply, val_main_call0_v3_apply,
    val_main_call0_v2_apply, val_main_call0_cst_apply, val_main_call0_v1_apply, val_main_call0_v0_apply, pre_apply]
  show _ * Ideal.div (Ideal.ofBits .f32 0x3F800000#32) (Ideal.ofBits .f32 0x3F800000#32 + Ideal.exp (-_)) = _
  rw [one_f32]
  rfl

theorem raw_apply (r : Fin 32768) (c : Fin 92) :
    val_main_v8 (F := Ideal) x0 x1 x2 x3 x4 (ix2 r c) = Spec.raw (Spec.row x0 r) x1 x2 x3 x4 c := by
  rw [val_main_v8_apply, val_main_v5_apply, val_main_v7_apply, val_main_v6_apply]
  unfold Spec.raw
  show (∑ k : Fin 512, val_main_v4 (F := Ideal) x0 x1 x2 (lidx_main_v5 (ix2 r c) k) * x3 (ridx_main_v5 (ix2 r c) k)) + x4 (idx_main_v6 (idx_main_v7 (ix2 r c))) = _
  refine congrArg₂ (· + ·) (Finset.sum_congr rfl fun k _ => ?_) ?_
  · have e : lidx_main_v5 (ix2 r c) k = ix2 r k := (funext fun a => Fin.ext (by match a with | ⟨0, _⟩ => rfl | ⟨1, _⟩ => rfl))
    rw [e, act_apply]
    exact congrArg (_ * ·) (congrArg x3 (funext fun a => Fin.ext (by match a with | ⟨0, _⟩ => rfl | ⟨1, _⟩ => rfl)))
  · exact congrArg x4 (funext fun a => Fin.ext (by match a with | ⟨0, _⟩ => rfl))

theorem groups_apply (r : Fin 32768) (a : Fin 23) (e : Fin 4) :
    val_main_v9 (F := Ideal) x0 x1 x2 x3 x4 (ix3 r a e) = Spec.groups (Spec.row x0 r) x1 x2 x3 x4 a e := by
  have e9 : idx_main_v9 (ix3 r a e) = ix2 r ⟨4 * a.val + e.val, by have := a.isLt; have := e.isLt; omega⟩ :=
    funext fun ax => Fin.ext (by
      have := a.isLt; have := e.isLt
      match ax with
      | ⟨0, _⟩ => show ((r.val * 23 + a.val) * 4 + e.val) / 92 = r.val; omega
      | ⟨1, _⟩ => show ((r.val * 23 + a.val) * 4 + e.val) % 92 = 4 * a.val + e.val; omega)
  rw [val_main_v9_apply, e9, raw_apply]
  rfl

end Cert.ReferenceIdeal.Body

end
-- ==== Proof.ReferenceHead.lean ====
/-
  The rest of the reference program, read at one entry: directions, bone lengths, joint offsets and joint positions.

  The reference slices the first three entries of each group, sums their squares from zero, takes the square root, floors
  it and divides; the fourth entry goes through softplus (with the same never-firing guard, and `-|x|` written as a
  negation where the kernel writes `0 - |x|`); the offsets are a zero row followed by direction × length; the positions
  are built joint by joint along the same tree and stacked in two pieces of 16 and 8.  Entry by entry these are the
  specification's functions of the batch row.
-/
import proofs.«106758_j18236431139314_1_alg».proof.Proof.ReferenceDense
import Idealize.ShloMosaic.Lib.ValueLayout
import Idealize.ShloMosaic.Lib.Pipeline.Value

noncomputable section

namespace Cert.ReferenceIdeal.Body

open Cert.ReferenceIdeal Cert.ReferenceIdeal.Gen Cert.ReferenceIdeal.ReadP Idealize.ShloMosaic Idealize.ShloMosaic.ValueIdx

/-- The zero word as an extended real. -/
abbrev Z0 : EReal := Ideal.ofBits .f32 0x00000000#32

/-- Softplus as the reference spells it on one number, the undefined-case guard included. -/
def softplusR (x : Ideal .f32) : Ideal .f32 :=
  Scalar.select (FloatOps.cmpf .une (FloatOps.subf x Z0) (FloatOps.subf x Z0)) (FloatOps.addf x Z0)
    (FloatOps.addf (FloatOps.maximumf x Z0) (FloatOps.hostUnary .log1p (FloatOps.hostUnary .exp (FloatOps.hostNegf (FloatOps.hostAbsf (FloatOps.subf x Z0))))))

/-- The guard compares a number with itself, so the second branch is taken; `-y` is `0 - y`. -/
theorem softplusR_eq (x : EReal) : softplusR x = Spec.softplus x := by
  unfold softplusR
  show Scalar.select (Ideal.cmp .une (x - Z0) (x - Z0)) (x + Z0) (max x Z0 + Ideal.log1p (Ideal.exp (-(max (x - Z0) (-(x - Z0)))))) = _
  have h0 : Ideal.cmp .une (x - Z0) (x - Z0) = 0#1 := by simp [Ideal.cmp]
  rw [h0, select_zero]
  unfold Spec.softplus
  show max x (Ideal.ofBits .f32 0x00000000#32) + Ideal.log1p (Ideal.exp (-(max (x - Ideal.ofBits .f32 0x00000000#32) (-(x - Ideal.ofBits .f32 0x00000000#32))))) = _
  rw [Ideal.ofBits_zero_f32, zero_sub]

variable (x0 : (⟨S32768x1024, .f32⟩ : BufTy).Contents (Elt Ideal)) (x1 : (⟨S1024x512, .f32⟩ : BufTy).Contents (Elt Ideal))
  (x2 : (⟨S512, .f32⟩ : BufTy).Contents (Elt Ideal)) (x3 : (⟨S512x92, .f32⟩ : BufTy).Contents (Elt Ideal))
  (x4 : (⟨S92, .f32⟩ : BufTy).Contents (Elt Ideal))

section rows
variable (r : Fin 32768)

theorem vec_apply (a : Fin 23) (d : Fin 3) :
    val_main_v10 (F := Ideal) x0 x1 x2 x3 x4 (ix3 r a d) = Spec.groups (Spec.row x0 r) x1 x2 x3 x4 a d.castSucc := by
  have e : idx_main_v10 (ix3 r a d) = ix3 r a d.castSucc := (funext fun a => Fin.ext (by match a with | ⟨0, _⟩ => rfl | ⟨1, _⟩ => rfl | ⟨2, _⟩ => rfl))
  rw [val_main_v10_apply, e, groups_apply]

theorem nrm_apply (a : Fin 23) :
    val_main_v11 (F := Ideal) x0 x1 x2 x3 x4 (ix3 r a (0 : Fin 1)) = Spec.nrm (Spec.groups (Spec.row x0 r) x1 x2 x3 x4) a := by
  have e : idx_main_call1_v2 (ix3 r a (0 : Fin 1)) = ix2 r a := (funext fun a => Fin.ext (by match a with | ⟨0, _⟩ => rfl | ⟨1, _⟩ => rfl))
  rw [val_main_v11_apply, val_main_call1_v2_apply, e, val_main_call1_v1_apply, val_main_call1_cst_apply]
  show Ideal.sqrt (Ideal.ofBits .f32 0x00000000#32 + ∑ k : Fin 3, val_main_call1_v0 (F := Ideal) x0 x1 x2 x3 x4 (idx_main_call1_v1 (ix2 r a) k)) = _
  rw [Ideal.ofBits_zero_f32, zero_add]
  unfold Spec.nrm
  refine congrArg Ideal.sqrt (Finset.sum_congr rfl fun k _ => ?_)
  have e2 : idx_main_call1_v1 (ix2 r a) k = ix3 r a k := (funext fun a => Fin.ext (by match a with | ⟨0, _⟩ => rfl | ⟨1, _⟩ => rfl | ⟨2, _⟩ => rfl))
  rw [e2, val_main_call1_v0_apply, vec_apply]
  rfl

theorem dir_apply (a : Fin 23) (d : Fin 3) :
    val_main_v15 (F := Ideal) x0 x1 x2 x3 x4 (ix3 r a d) = Spec.dir (Spec.groups (Spec.row x0 r) x1 x2 x3 x4) a d := by
  have e : idx_main_v14 (ix3 r a d) = ix3 r a (0 : Fin 1) := (funext fun a => Fin.ext (by match a with | ⟨0, _⟩ => rfl | ⟨1, _⟩ => rfl | ⟨2, _⟩ => rfl))
  rw [val_main_v15_apply, vec_apply, val_main_v14_apply, e, val_main_v13_apply, nrm_apply, val_main_v12_apply, val_main_cst_apply]
  rfl

theorem logLen_apply (a : Fin 23) :
    val_main_v17 (F := Ideal) x0 x1 x2 x3 x4 (ix2 r a) = Spec.groups (Spec.row x0 r) x1 x2 x3 x4 a 3 := by
  have e17 : idx_main_v17 (ix2 r a) = ix3 r a (0 : Fin 1) := funext fun ax => Fin.ext (by
    have := a.isLt
    match ax with
    | ⟨0, _⟩ => show (r.val * 23 + a.val) / 23 = r.val; omega
    | ⟨1, _⟩ => show (r.val * 23 + a.val) / 1 % 23 = a.val; omega
    | ⟨2, _⟩ => rfl)
  have e16 : idx_main_v16 (ix3 r a (0 : Fin 1)) = ix3 r a (3 : Fin 4) := (funext fun a => Fin.ext (by match a with | ⟨0, _⟩ => rfl | ⟨1, _⟩ => rfl | ⟨2, _⟩ => rfl))
  rw [val_main_v17_apply, e17, val_main_v16_apply, e16, groups_apply]

theorem len_apply (a : Fin 23) :
    val_main_v18 (F := Ideal) x0 x1 x2 x3 x4 (ix2 r a) = Spec.len (Spec.groups (Spec.row x0 r) x1 x2 x3 x4) a := by
  simp only [val_main_v18_apply, val_main_call2_v4_apply, val_main_call2_v3_apply, val_main_call2_v2_apply, val_main_call2_v6_apply,
    val_main_call2_v5_apply, val_main_call2_v11_apply, val_main_call2_v1_apply, val_main_call2_v0_apply, val_main_call2_v10_apply,
    val_main_call2_v9_apply, val_main_call2_v8_apply, val_main_call2_v7_apply, val_main_call2_cst_apply, logLen_apply]
  exact softplusR_eq (Spec.groups (Spec.row x0 r) x1 x2 x3 x4 a 3)

/-- The root's offset row is the zero row. -/
theorem off_root (d : Fin 3) : val_main_v23 (F := Ideal) x0 x1 x2 x3 x4 (ix3 r (0 : Fin 24) d) = Z0 := by
  unfold val_main_v23
  refine (concatenate_pair_apply_left (t := S32768x24x3) (s₁ := S32768x1x3) (s₂ := S32768x23x3) (1 : Fin 3) _ _ _ (ix3 r (0 : Fin 24) d) rfl (ix3 r (0 : Fin 1) d)
    (fun b => by match b with | ⟨0, _⟩ => rfl | ⟨1, _⟩ => rfl | ⟨2, _⟩ => rfl)).trans ?_
  rw [val_main_v22_apply, val_main_cst_0_apply]
  rfl

/-- Joint `j ≥ 1`'s offset row is bone `j - 1`'s direction times its length. -/
theorem off_bone (j : Fin 24) (hj : ¬ j.val = 0) (d : Fin 3) :
    val_main_v23 (F := Ideal) x0 x1 x2 x3 x4 (ix3 r j d)
      = Spec.dir (Spec.groups (Spec.row x0 r) x1 x2 x3 x4) ⟨j.val - 1, by have := j.isLt; omega⟩ d
        * Spec.len (Spec.groups (Spec.row x0 r) x1 x2 x3 x4) ⟨j.val - 1, by have := j.isLt; omega⟩ := by
  unfold val_main_v23
  refine (concatenate_pair_apply_right (t := S32768x24x3) (s₁ := S32768x1x3) (s₂ := S32768x23x3) (1 : Fin 3) _ _ _ (ix3 r j d) rfl rfl
    (ix3 r (⟨j.val - 1, by have := j.isLt; omega⟩ : Fin 23) d) (fun b hb => ?_) ?_).trans ?_
  · match b with
    | ⟨0, _⟩ => rfl
    | ⟨1, _⟩ => exact absurd rfl hb
    | ⟨2, _⟩ => rfl
  · show j.val - 1 + 1 = j.val
    omega
  · have e20 : idx_main_v20 (ix3 r (⟨j.val - 1, by have := j.isLt; omega⟩ : Fin 23) d) = ix3 r (⟨j.val - 1, by have := j.isLt; omega⟩ : Fin 23) (0 : Fin 1) := (funext fun a => Fin.ext (by match a with | ⟨0, _⟩ => rfl | ⟨1, _⟩ => rfl | ⟨2, _⟩ => rfl))
    have e19 : idx_main_v19 (ix3 r (⟨j.val - 1, by have := j.isLt; omega⟩ : Fin 23) (0 : Fin 1)) = ix2 r (⟨j.val - 1, by have := j.isLt; omega⟩ : Fin 23) := (funext fun a => Fin.ext (by match a with | ⟨0, _⟩ => rfl | ⟨1, _⟩ => rfl))
    rw [val_main_v21_apply, dir_apply, val_main_v20_apply, e20, val_main_v19_apply, e19, len_apply]
    rfl

theorem off_apply (j : Fin 24) (d : Fin 3) :
    val_main_v23 (F := Ideal) x0 x1 x2 x3 x4 (ix3 r j d) = Spec.off (Spec.groups (Spec.row x0 r) x1 x2 x3 x4) j d := by
  unfold Spec.off
  by_cases h : j.val = 0
  · rw [dif_pos h]
    have hj : j = 0 := Fin.ext h
    subst hj
    exact (off_root x0 x1 x2 x3 x4 r d).trans Ideal.ofBits_zero_f32
  · rw [dif_neg h, off_bone x0 x1 x2 x3 x4 r j h d]

end rows

/-- One step of the tree walk: a parent's array plus row `n` of the offsets, at `(r, d)`. -/
theorem step (n : Nat) (hn : n < 24) (h : S32768x24x3.Slices ![0, n, 0] S32768x1x3) (par : FVec Ideal S32768x3 .f32)
    (O : FVec Ideal S32768x24x3 .f32) (r : Fin 32768) (d : Fin 3) :
    addf par (shapeCast S32768x3 (extractStridedSlice S32768x1x3 ![0, n, 0] O h) shapeCasts_S32768x1x3_S32768x3) (ix2 r d)
      = par (ix2 r d) + O (ix3 r ⟨n, hn⟩ d) := by
  rw [addf_apply]
  refine congrArg (par (ix2 r d) + ·) ?_
  refine (shapeCast_apply _ _ (ix2 r d) (ix3 r (0 : Fin 1) d) ?_).trans (slice3_axis1_apply n O h r 0 d ⟨n, hn⟩ rfl)
  rw [Shape.rowMajor_val_three, Shape.rowMajor_val_two]
  show (r.val * 1 + 0) * 3 + d.val = r.val * 3 + d.val
  omega

/-- The 24 position arrays as the reference names them, by joint. -/
def jointVec : Fin 24 → FVec Ideal S32768x3 .f32
  | ⟨0, _⟩ => val_main_v24 (F := Ideal)
  | ⟨1, _⟩ => val_main_v27 (F := Ideal) x0 x1 x2 x3 x4
  | ⟨2, _⟩ => val_main_v30 (F := Ideal) x0 x1 x2 x3 x4
  | ⟨3, _⟩ => val_main_v33 (F := Ideal) x0 x1 x2 x3 x4
  | ⟨4, _⟩ => val_main_v36 (F := Ideal) x0 x1 x2 x3 x4
  | ⟨5, _⟩ => val_main_v39 (F := Ideal) x0 x1 x2 x3 x4
  | ⟨6, _⟩ => val_main_v42 (F := Ideal) x0 x1 x2 x3 x4
  | ⟨7, _⟩ => val_main_v45 (F := Ideal) x0 x1 x2 x3 x4
  | ⟨8, _⟩ => val_main_v48 (F := Ideal) x0 x1 x2 x3 x4
  | ⟨9, _⟩ => val_main_v51 (F := Ideal) x0 x1 x2 x3 x4
  | ⟨10, _⟩ => val_main_v54 (F := Ideal) x0 x1 x2 x3 x4
  | ⟨11, _⟩ => val_main_v57 (F := Ideal) x0 x1 x2 x3 x4
  | ⟨12, _⟩ => val_main_v60 (F := Ideal) x0 x1 x2 x3 x4
  | ⟨13, _⟩ => val_main_v63 (F := Ideal) x0 x1 x2 x3 x4
  | ⟨14, _⟩ => val_main_v66 (F := Ideal) x0 x1 x2 x3 x4
  | ⟨15, _⟩ => val_main_v69 (F := Ideal) x0 x1 x2 x3 x4
  | ⟨16, _⟩ => val_main_v72 (F := Ideal) x0 x1 x2 x3 x4
  | ⟨17, _⟩ => val_main_v75 (F := Ideal) x0 x1 x2 x3 x4
  | ⟨18, _⟩ => val_main_v78 (F := Ideal) x0 x1 x2 x3 x4
  | ⟨19, _⟩ => val_main_v81 (F := Ideal) x0 x1 x2 x3 x4
  | ⟨20, _⟩ => val_main_v84 (F := Ideal) x0 x1 x2 x3 x4
  | ⟨21, _⟩ => val_main_v87 (F := Ideal) x0 x1 x2 x3 x4
  | ⟨22, _⟩ => val_main_v90 (F := Ideal) x0 x1 x2 x3 x4
  | ⟨23, _⟩ => val_main_v93 (F := Ideal) x0 x1 x2 x3 x4
  | ⟨n + 24, h⟩ => absurd h (by omega)

section tree
variable (r : Fin 32768) (d : Fin 3)

theorem pos0 : jointVec x0 x1 x2 x3 x4 0 (ix2 r d) = Spec.pos Z0 (fun a => val_main_v23 (F := Ideal) x0 x1 x2 x3 x4 (ix3 r a d)) 0 := by
  show val_main_v24 (F := Ideal) (ix2 r d) = Ideal.ofBits .f32 0x00000000#32
  rw [val_main_v24_apply, val_main_cst_1_apply]
  rfl
theorem pos1 : jointVec x0 x1 x2 x3 x4 1 (ix2 r d) = Spec.pos Z0 (fun a => val_main_v23 (F := Ideal) x0 x1 x2 x3 x4 (ix3 r a d)) 1 :=
  (step 1 (by omega) slices_S32768x24x3_S32768x1x3_0_1_0 (jointVec x0 x1 x2 x3 x4 0) (val_main_v23 (F := Ideal) x0 x1 x2 x3 x4) r d).trans
    (congrArg (· + val_main_v23 (F := Ideal) x0 x1 x2 x3 x4 (ix3 r ⟨1, by omega⟩ d)) (pos0 x0 x1 x2 x3 x4 r d))
theorem pos2 : jointVec x0 x1 x2 x3 x4 2 (ix2 r d) = Spec.pos Z0 (fun a => val_main_v23 (F := Ideal) x0 x1 x2 x3 x4 (ix3 r a d)) 2 :=
  (step 2 (by omega) slices_S32768x24x3_S32768x1x3_0_2_0 (jointVec x0 x1 x2 x3 x4 0) (val_main_v23 (F := Ideal) x0 x1 x2 x3 x4) r d).trans
    (congrArg (· + val_main_v23 (F := Ideal) x0 x1 x2 x3 x4 (ix3 r ⟨2, by omega⟩ d)) (pos0 x0 x1 x2 x3 x4 r d))
theorem pos3 : jointVec x0 x1 x2 x3 x4 3 (ix2 r d) = Spec.pos Z0 (fun a => val_main_v23 (F := Ideal) x0 x1 x2 x3 x4 (ix3 r a d)) 3 :=
  (step 3 (by omega) slices_S32768x24x3_S32768x1x3_0_3_0 (jointVec x0 x1 x2 x3 x4 0) (val_main_v23 (F := Ideal) x0 x1 x2 x3 x4) r d).trans
    (congrArg (· + val_main_v23 (F := Ideal) x0 x1 x2 x3 x4 (ix3 r ⟨3, by omega⟩ d)) (pos0 x0 x1 x2 x3 x4 r d))
theorem pos4 : jointVec x0 x1 x2 x3 x4 4 (ix2 r d) = Spec.pos Z0 (fun a => val_main_v23 (F := Ideal) x0 x1 x2 x3 x4 (ix3 r a d)) 4 :=
  (step 4 (by omega) slices_S32768x24x3_S32768x1x3_0_4_0 (jointVec x0 x1 x2 x3 x4 1) (val_main_v23 (F := Ideal) x0 x1 x2 x3 x4) r d).trans
    (congrArg (· + val_main_v23 (F := Ideal) x0 x1 x2 x3 x4 (ix3 r ⟨4, by omega⟩ d)) (pos1 x0 x1 x2 x3 x4 r d))
theorem pos5 : jointVec x0 x1 x2 x3 x4 5 (ix2 r d) = Spec.pos Z0 (fun a => val_main_v23 (F := Ideal) x0 x1 x2 x3 x4 (ix3 r a d)) 5 :=
  (step 5 (by omega) slices_S32768x24x3_S32768x1x3_0_5_0 (jointVec x0 x1 x2 x3 x4 2) (val_main_v23 (F := Ideal) x0 x1 x2 x3 x4) r d).trans
    (congrArg (· + val_main_v23 (F := Ideal) x0 x1 x2 x3 x4 (ix3 r ⟨5, by omega⟩ d)) (pos2 x0 x1 x2 x3 x4 r d))
theorem pos6 : jointVec x0 x1 x2 x3 x4 6 (ix2 r d) = Spec.pos Z0 (fun a => val_main_v23 (F := Ideal) x0 x1 x2 x3 x4 (ix3 r a d)) 6 :=
  (step 6 (by omega) slices_S32768x24x3_S32768x1x3_0_6_0 (jointVec x0 x1 x2 x3 x4 3) (val_main_v23 (F := Ideal) x0 x1 x2 x3 x4) r d).trans
    (congrArg (· + val_main_v23 (F := Ideal) x0 x1 x2 x3 x4 (ix3 r ⟨6, by omega⟩ d)) (pos3 x0 x1 x2 x3 x4 r d))
theorem pos7 : jointVec x0 x1 x2 x3 x4 7 (ix2 r d) = Spec.pos Z0 (fun a => val_main_v23 (F := Ideal) x0 x1 x2 x3 x4 (ix3 r a d)) 7 :=
  (step 7 (by omega) slices_S32768x24x3_S32768x1x3_0_7_0 (jointVec x0 x1 x2 x3 x4 4) (val_main_v23 (F := Ideal) x0 x1 x2 x3 x4) r d).trans
    (congrArg (· + val_main_v23 (F := Ideal) x0 x1 x2 x3 x4 (ix3 r ⟨7, by omega⟩ d)) (pos4 x0 x1 x2 x3 x4 r d))
theorem pos8 : jointVec x0 x1 x2 x3 x4 8 (ix2 r d) = Spec.pos Z0 (fun a => val_main_v23 (F := Ideal) x0 x1 x2 x3 x4 (ix3 r a d)) 8 :=
  (step 8 (by omega) slices_S32768x24x3_S32768x1x3_0_8_0 (jointVec x0 x1 x2 x3 x4 5) (val_main_v23 (F := Ideal) x0 x1 x2 x3 x4) r d).trans
    (congrArg (· + val_main_v23 (F := Ideal) x0 x1 x2 x3 x4 (ix3 r ⟨8, by omega⟩ d)) (pos5 x0 x1 x2 x3 x4 r d))
theorem pos9 : jointVec x0 x1 x2 x3 x4 9 (ix2 r d) = Spec.pos Z0 (fun a => val_main_v23 (F := Ideal) x0 x1 x2 x3 x4 (ix3 r a d)) 9 :=
  (step 9 (by omega) slices_S32768x24x3_S32768x1x3_0_9_0 (jointVec x0 x1 x2 x3 x4 6) (val_main_v23 (F := Ideal) x0 x1 x2 x3 x4) r d).trans
    (congrArg (· + val_main_v23 (F := Ideal) x0 x1 x2 x3 x4 (ix3 r ⟨9, by omega⟩ d)) (pos6 x0 x1 x2 x3 x4 r d))
theorem pos10 : jointVec x0 x1 x2 x3 x4 10 (ix2 r d) = Spec.pos Z0 (fun a => val_main_v23 (F := Ideal) x0 x1 x2 x3 x4 (ix3 r a d)) 10 :=
  (step 10 (by omega) slices_S32768x24x3_S32768x1x3_0_10_0 (jointVec x0 x1 x2 x3 x4 7) (val_main_v23 (F := Ideal) x0 x1 x2 x3 x4) r d).trans
    (congrArg (· + val_main_v23 (F := Ideal) x0 x1 x2 x3 x4 (ix3 r ⟨10, by omega⟩ d)) (pos7 x0 x1 x2 x3 x4 r d))
theorem pos11 : jointVec x0 x1 x2 x3 x4 11 (ix2 r d) = Spec.pos Z0 (fun a => val_main_v23 (F := Ideal) x0 x1 x2 x3 x4 (ix3 r a d)) 11 :=
  (step 11 (by omega) slices_S32768x24x3_S32768x1x3_0_11_0 (jointVec x0 x1 x2 x3 x4 8) (val_main_v23 (F := Ideal) x0 x1 x2 x3 x4) r d).trans
    (congrArg (· + val_main_v23 (F := Ideal) x0 x1 x2 x3 x4 (ix3 r ⟨11, by omega⟩ d)) (pos8 x0 x1 x2 x3 x4 r d))
theorem pos12 : jointVec x0 x1 x2 x3 x4 12 (ix2 r d) = Spec.pos Z0 (fun a => val_main_v23 (F := Ideal) x0 x1 x2 x3 x4 (ix3 r a d)) 12 :=
  (step 12 (by omega) slices_S32768x24x3_S32768x1x3_0_12_0 (jointVec x0 x1 x2 x3 x4 9) (val_main_v23 (F := Ideal) x0 x1 x2 x3 x4) r d).trans
    (congrArg (· + val_main_v23 (F := Ideal) x0 x1 x2 x3 x4 (ix3 r ⟨12, by omega⟩ d)) (pos9 x0 x1 x2 x3 x4 r d))
theorem pos13 : jointVec x0 x1 x2 x3 x4 13 (ix2 r d) = Spec.pos Z0 (fun a => val_main_v23 (F := Ideal) x0 x1 x2 x3 x4 (ix3 r a d)) 13 :=
  (step 13 (by omega) slices_S32768x24x3_S32768x1x3_0_13_0 (jointVec x0 x1 x2 x3 x4 9) (val_main_v23 (F := Ideal) x0 x1 x2 x3 x4) r d).trans
    (congrArg (· + val_main_v23 (F := Ideal) x0 x1 x2 x3 x4 (ix3 r ⟨13, by omega⟩ d)) (pos9 x0 x1 x2 x3 x4 r d))
theorem pos14 : jointVec x0 x1 x2 x3 x4 14 (ix2 r d) = Spec.pos Z0 (fun a => val_main_v23 (F := Ideal) x0 x1 x2 x3 x4 (ix3 r a d)) 14 :=
  (step 14 (by omega) slices_S32768x24x3_S32768x1x3_0_14_0 (jointVec x0 x1 x2 x3 x4 9) (val_main_v23 (F := Ideal) x0 x1 x2 x3 x4) r d).trans
    (congrArg (· + val_main_v23 (F := Ideal) x0 x1 x2 x3 x4 (ix3 r ⟨14, by omega⟩ d)) (pos9 x0 x1 x2 x3 x4 r d))
theorem pos15 : jointVec x0 x1 x2 x3 x4 15 (ix2 r d) = Spec.pos Z0 (fun a => val_main_v23 (F := Ideal) x0 x1 x2 x3 x4 (ix3 r a d)) 15 :=
  (step 15 (by omega) slices_S32768x24x3_S32768x1x3_0_15_0 (jointVec x0 x1 x2 x3 x4 12) (val_main_v23 (F := Ideal) x0 x1 x2 x3 x4) r d).trans
    (congrArg (· + val_main_v23 (F := Ideal) x0 x1 x2 x3 x4 (ix3 r ⟨15, by omega⟩ d)) (pos12 x0 x1 x2 x3 x4 r d))
theorem pos16 : jointVec x0 x1 x2 x3 x4 16 (ix2 r d) = Spec.pos Z0 (fun a => val_main_v23 (F := Ideal) x0 x1 x2 x3 x4 (ix3 r a d)) 16 :=
  (step 16 (by omega) slices_S32768x24x3_S32768x1x3_0_16_0 (jointVec x0 x1 x2 x3 x4 13) (val_main_v23 (F := Ideal) x0 x1 x2 x3 x4) r d).trans
    (congrArg (· + val_main_v23 (F := Ideal) x0 x1 x2 x3 x4 (ix3 r ⟨16, by omega⟩ d)) (pos13 x0 x1 x2 x3 x4 r d))
theorem pos17 : jointVec x0 x1 x2 x3 x4 17 (ix2 r d) = Spec.pos Z0 (fun a => val_main_v23 (F := Ideal) x0 x1 x2 x3 x4 (ix3 r a d)) 17 :=
  (step 17 (by omega) slices_S32768x24x3_S32768x1x3_0_17_0 (jointVec x0 x1 x2 x3 x4 14) (val_main_v23 (F := Ideal) x0 x1 x2 x3 x4) r d).trans
    (congrArg (· + val_main_v23 (F := Ideal) x0 x1 x2 x3 x4 (ix3 r ⟨17, by omega⟩ d)) (pos14 x0 x1 x2 x3 x4 r d))
theorem pos18 : jointVec x0 x1 x2 x3 x4 18 (ix2 r d) = Spec.pos Z0 (fun a => val_main_v23 (F := Ideal) x0 x1 x2 x3 x4 (ix3 r a d)) 18 :=
  (step 18 (by omega) slices_S32768x24x3_S32768x1x3_0_18_0 (jointVec x0 x1 x2 x3 x4 16) (val_main_v23 (F := Ideal) x0 x1 x2 x3 x4) r d).trans
    (congrArg (· + val_main_v23 (F := Ideal) x0 x1 x2 x3 x4 (ix3 r ⟨18, by omega⟩ d)) (pos16 x0 x1 x2 x3 x4 r d))
theorem pos19 : jointVec x0 x1 x2 x3 x4 19 (ix2 r d) = Spec.pos Z0 (fun a => val_main_v23 (F := Ideal) x0 x1 x2 x3 x4 (ix3 r a d)) 19 :=
  (step 19 (by omega) slices_S32768x24x3_S32768x1x3_0_19_0 (jointVec x0 x1 x2 x3 x4 17) (val_main_v23 (F := Ideal) x0 x1 x2 x3 x4) r d).trans
    (congrArg (· + val_main_v23 (F := Ideal) x0 x1 x2 x3 x4 (ix3 r ⟨19, by omega⟩ d)) (pos17 x0 x1 x2 x3 x4 r d))
theorem pos20 : jointVec x0 x1 x2 x3 x4 20 (ix2 r d) = Spec.pos Z0 (fun a => val_main_v23 (F := Ideal) x0 x1 x2 x3 x4 (ix3 r a d)) 20 :=
  (step 20 (by omega) slices_S32768x24x3_S32768x1x3_0_20_0 (jointVec x0 x1 x2 x3 x4 18) (val_main_v23 (F := Ideal) x0 x1 x2 x3 x4) r d).trans
    (congrArg (· + val_main_v23 (F := Ideal) x0 x1 x2 x3 x4 (ix3 r ⟨20, by omega⟩ d)) (pos18 x0 x1 x2 x3 x4 r d))
theorem pos21 : jointVec x0 x1 x2 x3 x4 21 (ix2 r d) = Spec.pos Z0 (fun a => val_main_v23 (F := Ideal) x0 x1 x2 x3 x4 (ix3 r a d)) 21 :=
  (step 21 (by omega) slices_S32768x24x3_S32768x1x3_0_21_0 (jointVec x0 x1 x2 x3 x4 19) (val_main_v23 (F := Ideal) x0 x1 x2 x3 x4) r d).trans
    (congrArg (· + val_main_v23 (F := Ideal) x0 x1 x2 x3 x4 (ix3 r ⟨21, by omega⟩ d)) (pos19 x0 x1 x2 x3 x4 r d))
theorem pos22 : jointVec x0 x1 x2 x3 x4 22 (ix2 r d) = Spec.pos Z0 (fun a => val_main_v23 (F := Ideal) x0 x1 x2 x3 x4 (ix3 r a d)) 22 :=
  (step 22 (by omega) slices_S32768x24x3_S32768x1x3_0_22_0 (jointVec x0 x1 x2 x3 x4 20) (val_main_v23 (F := Ideal) x0 x1 x2 x3 x4) r d).trans
    (congrArg (· + val_main_v23 (F := Ideal) x0 x1 x2 x3 x4 (ix3 r ⟨22, by omega⟩ d)) (pos20 x0 x1 x2 x3 x4 r d))
theorem pos23 : jointVec x0 x1 x2 x3 x4 23 (ix2 r d) = Spec.pos Z0 (fun a => val_main_v23 (F := Ideal) x0 x1 x2 x3 x4 (ix3 r a d)) 23 :=
  (step 23 (by omega) slices_S32768x24x3_S32768x1x3_0_23_0 (jointVec x0 x1 x2 x3 x4 21) (val_main_v23 (F := Ideal) x0 x1 x2 x3 x4) r d).trans
    (congrArg (· + val_main_v23 (F := Ideal) x0 x1 x2 x3 x4 (ix3 r ⟨23, by omega⟩ d)) (pos21 x0 x1 x2 x3 x4 r d))

theorem pos_all (j : Fin 24) :
    jointVec x0 x1 x2 x3 x4 j (ix2 r d) = Spec.pos Z0 (fun a => val_main_v23 (F := Ideal) x0 x1 x2 x3 x4 (ix3 r a d)) j :=
  match j with
  | ⟨0, _⟩ => pos0 x0 x1 x2 x3 x4 r d
  | ⟨1, _⟩ => pos1 x0 x1 x2 x3 x4 r d
  | ⟨2, _⟩ => pos2 x0 x1 x2 x3 x4 r d
  | ⟨3, _⟩ => pos3 x0 x1 x2 x3 x4 r d
  | ⟨4, _⟩ => pos4 x0 x1 x2 x3 x4 r d
  | ⟨5, _⟩ => pos5 x0 x1 x2 x3 x4 r d
  | ⟨6, _⟩ => pos6 x0 x1 x2 x3 x4 r d
  | ⟨7, _⟩ => pos7 x0 x1 x2 x3 x4 r d
  | ⟨8, _⟩ => pos8 x0 x1 x2 x3 x4 r d
  | ⟨9, _⟩ => pos9 x0 x1 x2 x3 x4 r d
  | ⟨10, _⟩ => pos10 x0 x1 x2 x3 x4 r d
  | ⟨11, _⟩ => pos11 x0 x1 x2 x3 x4 r d
  | ⟨12, _⟩ => pos12 x0 x1 x2 x3 x4 r d
  | ⟨13, _⟩ => pos13 x0 x1 x2 x3 x4 r d
  | ⟨14, _⟩ => pos14 x0 x1 x2 x3 x4 r d
  | ⟨15, _⟩ => pos15 x0 x1 x2 x3 x4 r d
  | ⟨16, _⟩ => pos16 x0 x1 x2 x3 x4 r d
  | ⟨17, _⟩ => pos17 x0 x1 x2 x3 x4 r d
  | ⟨18, _⟩ => pos18 x0 x1 x2 x3 x4 r d
  | ⟨19, _⟩ => pos19 x0 x1 x2 x3 x4 r d
  | ⟨20, _⟩ => pos20 x0 x1 x2 x3 x4 r d
  | ⟨21, _⟩ => pos21 x0 x1 x2 x3 x4 r d
  | ⟨22, _⟩ => pos22 x0 x1 x2 x3 x4 r d
  | ⟨23, _⟩ => pos23 x0 x1 x2 x3 x4 r d
  | ⟨n + 24, h⟩ => absurd h (by omega)

/-- A [32768, 3] array given a unit middle axis, at `(r, 0, d)`: the array at `(r, d)`. -/
theorem layer (J : FVec Ideal S32768x3 .f32) :
    broadcastInDim S32768x1x3 ![0, 2] bcast_S32768x3_S32768x1x3_0_2 J (ix3 r (0 : Fin 1) d) = J (ix2 r d) :=
  broadcastInDim_apply _ _ J (ix3 r (0 : Fin 1) d) (ix2 r d) (fun a => by match a with | ⟨0, _⟩ => rfl | ⟨1, _⟩ => rfl)

/-- The 24 per-joint arrays with their unit middle axis, as the reference names them. -/
def stackRow : Fin 24 → FVec Ideal S32768x1x3 .f32
  | ⟨0, _⟩ => val_main_v94 (F := Ideal)
  | ⟨1, _⟩ => val_main_v95 (F := Ideal) x0 x1 x2 x3 x4
  | ⟨2, _⟩ => val_main_v96 (F := Ideal) x0 x1 x2 x3 x4
  | ⟨3, _⟩ => val_main_v97 (F := Ideal) x0 x1 x2 x3 x4
  | ⟨4, _⟩ => val_main_v98 (F := Ideal) x0 x1 x2 x3 x4
  | ⟨5, _⟩ => val_main_v99 (F := Ideal) x0 x1 x2 x3 x4
  | ⟨6, _⟩ => val_main_v100 (F := Ideal) x0 x1 x2 x3 x4
  | ⟨7, _⟩ => val_main_v101 (F := Ideal) x0 x1 x2 x3 x4
  | ⟨8, _⟩ => val_main_v102 (F := Ideal) x0 x1 x2 x3 x4
  | ⟨9, _⟩ => val_main_v103 (F := Ideal) x0 x1 x2 x3 x4
  | ⟨10, _⟩ => val_main_v104 (F := Ideal) x0 x1 x2 x3 x4
  | ⟨11, _⟩ => val_main_v105 (F := Ideal) x0 x1 x2 x3 x4
  | ⟨12, _⟩ => val_main_v106 (F := Ideal) x0 x1 x2 x3 x4
  | ⟨13, _⟩ => val_main_v107 (F := Ideal) x0 x1 x2 x3 x4
  | ⟨14, _⟩ => val_main_v108 (F := Ideal) x0 x1 x2 x3 x4
  | ⟨15, _⟩ => val_main_v109 (F := Ideal) x0 x1 x2 x3 x4
  | ⟨16, _⟩ => val_main_v110 (F := Ideal) x0 x1 x2 x3 x4
  | ⟨17, _⟩ => val_main_v111 (F := Ideal) x0 x1 x2 x3 x4
  | ⟨18, _⟩ => val_main_v112 (F := Ideal) x0 x1 x2 x3 x4
  | ⟨19, _⟩ => val_main_v113 (F := Ideal) x0 x1 x2 x3 x4
  | ⟨20, _⟩ => val_main_v114 (F := Ideal) x0 x1 x2 x3 x4
  | ⟨21, _⟩ => val_main_v115 (F := Ideal) x0 x1 x2 x3 x4
  | ⟨22, _⟩ => val_main_v116 (F := Ideal) x0 x1 x2 x3 x4
  | ⟨23, _⟩ => val_main_v117 (F := Ideal) x0 x1 x2 x3 x4
  | ⟨n + 24, h⟩ => absurd h (by omega)

theorem stackRow_apply (j : Fin 24) : stackRow x0 x1 x2 x3 x4 j (ix3 r (0 : Fin 1) d) = jointVec x0 x1 x2 x3 x4 j (ix2 r d) :=
  match j with
  | ⟨0, h⟩ => layer r d (jointVec x0 x1 x2 x3 x4 ⟨0, h⟩)
  | ⟨1, h⟩ => layer r d (jointVec x0 x1 x2 x3 x4 ⟨1, h⟩)
  | ⟨2, h⟩ => layer r d (jointVec x0 x1 x2 x3 x4 ⟨2, h⟩)
  | ⟨3, h⟩ => layer r d (jointVec x0 x1 x2 x3 x4 ⟨3, h⟩)
  | ⟨4, h⟩ => layer r d (jointVec x0 x1 x2 x3 x4 ⟨4, h⟩)
  | ⟨5, h⟩ => layer r d (jointVec x0 x1 x2 x3 x4 ⟨5, h⟩)
  | ⟨6, h⟩ => layer r d (jointVec x0 x1 x2 x3 x4 ⟨6, h⟩)
  | ⟨7, h⟩ => layer r d (jointVec x0 x1 x2 x3 x4 ⟨7, h⟩)
  | ⟨8, h⟩ => layer r d (jointVec x0 x1 x2 x3 x4 ⟨8, h⟩)
  | ⟨9, h⟩ => layer r d (jointVec x0 x1 x2 x3 x4 ⟨9, h⟩)
  | ⟨10, h⟩ => layer r d (jointVec x0 x1 x2 x3 x4 ⟨10, h⟩)
  | ⟨11, h⟩ => layer r d (jointVec x0 x1 x2 x3 x4 ⟨11, h⟩)
  | ⟨12, h⟩ => layer r d (jointVec x0 x1 x2 x3 x4 ⟨12, h⟩)
  | ⟨13, h⟩ => layer r d (jointVec x0 x1 x2 x3 x4 ⟨13, h⟩)
  | ⟨14, h⟩ => layer r d (jointVec x0 x1 x2 x3 x4 ⟨14, h⟩)
  | ⟨15, h⟩ => layer r d (jointVec x0 x1 x2 x3 x4 ⟨15, h⟩)
  | ⟨16, h⟩ => layer r d (jointVec x0 x1 x2 x3 x4 ⟨16, h⟩)
  | ⟨17, h⟩ => layer r d (jointVec x0 x1 x2 x3 x4 ⟨17, h⟩)
  | ⟨18, h⟩ => layer r d (jointVec x0 x1 x2 x3 x4 ⟨18, h⟩)
  | ⟨19, h⟩ => layer r d (jointVec x0 x1 x2 x3 x4 ⟨19, h⟩)
  | ⟨20, h⟩ => layer r d (jointVec x0 x1 x2 x3 x4 ⟨20, h⟩)
  | ⟨21, h⟩ => layer r d (jointVec x0 x1 x2 x3 x4 ⟨21, h⟩)
  | ⟨22, h⟩ => layer r d (jointVec x0 x1 x2 x3 x4 ⟨22, h⟩)
  | ⟨23, h⟩ => layer r d (jointVec x0 x1 x2 x3 x4 ⟨23, h⟩)
  | ⟨n + 24, h⟩ => absurd h (by omega)

set_option maxHeartbeats 2000000 in
/-- The stacked positions at `(r, j, d)`: array `j` at `(r, d)` — joints 0–15 from the first piece, 16–23 from the second. -/
theorem stack_apply (j : Fin 24) :
    val_main_v120 (F := Ideal) x0 x1 x2 x3 x4 (ix3 r j d) = jointVec x0 x1 x2 x3 x4 j (ix2 r d) := by
  unfold val_main_v120
  by_cases hj : j.val < 16
  · refine (concatenate_pair_apply_left (t := S32768x24x3) (s₁ := S32768x16x3) (s₂ := S32768x8x3) (1 : Fin 3) _ _ _ (ix3 r j d) rfl (ix3 r (⟨j.val, hj⟩ : Fin 16) d)
      (fun b => by match b with | ⟨0, _⟩ => rfl | ⟨1, _⟩ => rfl | ⟨2, _⟩ => rfl)).trans ?_
    have h118 : val_main_v118 (F := Ideal) x0 x1 x2 x3 x4 = concatenate S32768x16x3 1 (List.ofFn fun n : Fin 16 =>
        (⟨S32768x1x3, stackRow x0 x1 x2 x3 x4 ⟨n.val, by have := n.isLt; omega⟩⟩ : (s : Shape) × (s.Idx → _)))
        concatenates_S32768x1x3_S32768x1x3_S32768x1x3_S32768x1x3_S32768x1x3_S32768x1x3_S32768x1x3_S32768x1x3_S32768x1x3_S32768x1x3_S32768x1x3_S32768x1x3_S32768x1x3_S32768x1x3_S32768x1x3_S32768x1x3_S32768x16x3_d1 := rfl
    rw [h118]
    refine (concatenate_ofFn_unit_apply (t := S32768x16x3) (s₁ := S32768x1x3) (1 : Fin 3)
      (fun n : Fin 16 => stackRow x0 x1 x2 x3 x4 ⟨n.val, by have := n.isLt; omega⟩)
      _ rfl rfl (ix3 r (⟨j.val, hj⟩ : Fin 16) d) ⟨j.val, hj⟩ rfl (ix3 r (0 : Fin 1) d) (fun b hb => ?_)).trans ?_
    · match b with
      | ⟨0, _⟩ => rfl
      | ⟨1, _⟩ => exact absurd rfl hb
      | ⟨2, _⟩ => rfl
    · exact stackRow_apply x0 x1 x2 x3 x4 r d j
  · have hj24 := j.isLt
    refine (concatenate_pair_apply_right (t := S32768x24x3) (s₁ := S32768x16x3) (s₂ := S32768x8x3) (1 : Fin 3) _ _ _ (ix3 r j d) rfl rfl (ix3 r (⟨j.val - 16, by omega⟩ : Fin 8) d)
      (fun b hb => ?_) ?_).trans ?_
    · match b with
      | ⟨0, _⟩ => rfl
      | ⟨1, _⟩ => exact absurd rfl hb
      | ⟨2, _⟩ => rfl
    · show j.val - 16 + 16 = j.val
      omega
    have h119 : val_main_v119 (F := Ideal) x0 x1 x2 x3 x4 = concatenate S32768x8x3 1 (List.ofFn fun n : Fin 8 =>
        (⟨S32768x1x3, stackRow x0 x1 x2 x3 x4 ⟨n.val + 16, by have := n.isLt; omega⟩⟩ : (s : Shape) × (s.Idx → _)))
        concatenates_S32768x1x3_S32768x1x3_S32768x1x3_S32768x1x3_S32768x1x3_S32768x1x3_S32768x1x3_S32768x1x3_S32768x8x3_d1 := rfl
    rw [h119]
    refine (concatenate_ofFn_unit_apply (t := S32768x8x3) (s₁ := S32768x1x3) (1 : Fin 3)
      (fun n : Fin 8 => stackRow x0 x1 x2 x3 x4 ⟨n.val + 16, by have := n.isLt; omega⟩)
      _ rfl rfl (ix3 r (⟨j.val - 16, by omega⟩ : Fin 8) d) ⟨j.val - 16, by omega⟩ rfl (ix3 r (0 : Fin 1) d) (fun b hb => ?_)).trans ?_
    · match b with
      | ⟨0, _⟩ => rfl
      | ⟨1, _⟩ => exact absurd rfl hb
      | ⟨2, _⟩ => rfl
    · have e : (⟨j.val - 16 + 16, by omega⟩ : Fin 24) = j := Fin.ext (by show j.val - 16 + 16 = j.val; omega)
      exact (stackRow_apply x0 x1 x2 x3 x4 r d _).trans (by rw [e])

end tree

/-! ## The three results as whole arrays -/

theorem lengths_eq : val_main_v18 (F := Ideal) x0 x1 x2 x3 x4 = Spec.lengths x0 x1 x2 x3 x4 := by
  funext i
  obtain ⟨r, a, rfl⟩ : ∃ (r : Fin 32768) (a : Fin 23), i = ix2 r a := ⟨i 0, i 1, eq_ix2 i⟩
  exact len_apply x0 x1 x2 x3 x4 r a

theorem offsets_eq : val_main_v23 (F := Ideal) x0 x1 x2 x3 x4 = Spec.offsets x0 x1 x2 x3 x4 := by
  funext i
  obtain ⟨r, j, d, rfl⟩ : ∃ (r : Fin 32768) (j : Fin 24) (d : Fin 3), i = ix3 r j d := ⟨i 0, i 1, i 2, eq_ix3 i⟩
  exact off_apply x0 x1 x2 x3 x4 r j d

theorem joints_eq : val_main_v120 (F := Ideal) x0 x1 x2 x3 x4 = Spec.joints x0 x1 x2 x3 x4 := by
  funext i
  obtain ⟨r, j, d, rfl⟩ : ∃ (r : Fin 32768) (j : Fin 24) (d : Fin 3), i = ix3 r j d := ⟨i 0, i 1, i 2, eq_ix3 i⟩
  refine (stack_apply x0 x1 x2 x3 x4 r d j).trans ((pos_all x0 x1 x2 x3 x4 r d j).trans ?_)
  show Spec.pos (Ideal.ofBits .f32 0x00000000#32) _ j = _
  rw [Ideal.ofBits_zero_f32]
  exact congrArg (fun o => Spec.pos 0 o j) (funext fun a => off_apply x0 x1 x2 x3 x4 r a d)

end Cert.ReferenceIdeal.Body

end
-- ==== Proof.ReferenceRun.lean ====
/-
  The reference program's run, with its three results stated as the composed stages of its operations.

  The program is a straight line of 149 array operations.  Every weakly fair execution performs them in order, so each
  buffer ends at the value the operations compute for it.  The joint positions are stacked, by the last three operations,
  from 24 per-joint arrays; each of those is read off the first 146 operations on its own (a short chain of additions of
  slices of the offsets), and the stack is then read off the last three.  This keeps every expression small: written
  out as one expression the positions repeat the offsets' expression about a hundred times.
-/
import proofs.«106758_j18236431139314_1_alg».proof.Proof.ReferenceReadP
import Idealize.ShloMosaic.Lib.StableHlo.Run

noncomputable section

namespace Cert.ReferenceIdeal.Run

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running one line of operations after another is running the second from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

set_option maxRecDepth 8192 in
/-- The last three operations stack the 24 per-joint buffers: sixteen, then eight, then the two pieces. -/
theorem stack_after (VB : Valuation τ sig (Elt F)) :
    after (List.drop 146 (ops (F := F))) VB (Proc.devRef .tc main_v120)
      = concatenate S32768x24x3 1 [⟨S32768x16x3, concatenate S32768x16x3 1 [
          ⟨S32768x1x3, (VB (Proc.devRef .tc main_v94) : (⟨S32768x1x3, .f32⟩ : BufTy).Contents (Elt F))⟩,
          ⟨S32768x1x3, (VB (Proc.devRef .tc main_v95) : (⟨S32768x1x3, .f32⟩ : BufTy).Contents (Elt F))⟩,
          ⟨S32768x1x3, (VB (Proc.devRef .tc main_v96) : (⟨S32768x1x3, .f32⟩ : BufTy).Contents (Elt F))⟩,
          ⟨S32768x1x3, (VB (Proc.devRef .tc main_v97) : (⟨S32768x1x3, .f32⟩ : BufTy).Contents (Elt F))⟩,
          ⟨S32768x1x3, (VB (Proc.devRef .tc main_v98) : (⟨S32768x1x3, .f32⟩ : BufTy).Contents (Elt F))⟩,
          ⟨S32768x1x3, (VB (Proc.devRef .tc main_v99) : (⟨S32768x1x3, .f32⟩ : BufTy).Contents (Elt F))⟩,
          ⟨S32768x1x3, (VB (Proc.devRef .tc main_v100) : (⟨S32768x1x3, .f32⟩ : BufTy).Contents (Elt F))⟩,
          ⟨S32768x1x3, (VB (Proc.devRef .tc main_v101) : (⟨S32768x1x3, .f32⟩ : BufTy).Contents (Elt F))⟩,
          ⟨S32768x1x3, (VB (Proc.devRef .tc main_v102) : (⟨S32768x1x3, .f32⟩ : BufTy).Contents (Elt F))⟩,
          ⟨S32768x1x3, (VB (Proc.devRef .tc main_v103) : (⟨S32768x1x3, .f32⟩ : BufTy).Contents (Elt F))⟩,
          ⟨S32768x1x3, (VB (Proc.devRef .tc main_v104) : (⟨S32768x1x3, .f32⟩ : BufTy).Contents (Elt F))⟩,
          ⟨S32768x1x3, (VB (Proc.devRef .tc main_v105) : (⟨S32768x1x3, .f32⟩ : BufTy).Contents (Elt F))⟩,
          ⟨S32768x1x3, (VB (Proc.devRef .tc main_v106) : (⟨S32768x1x3, .f32⟩ : BufTy).Contents (Elt F))⟩,
          ⟨S32768x1x3, (VB (Proc.devRef .tc main_v107) : (⟨S32768x1x3, .f32⟩ : BufTy).Contents (Elt F))⟩,
          ⟨S32768x1x3, (VB (Proc.devRef .tc main_v108) : (⟨S32768x1x3, .f32⟩ : BufTy).Contents (Elt F))⟩,
          ⟨S32768x1x3, (VB (Proc.devRef .tc main_v109) : (⟨S32768x1x3, .f32⟩ : BufTy).Contents (Elt F))⟩]
          concatenates_S32768x1x3_S32768x1x3_S32768x1x3_S32768x1x3_S32768x1x3_S32768x1x3_S32768x1x3_S32768x1x3_S32768x1x3_S32768x1x3_S32768x1x3_S32768x1x3_S32768x1x3_S32768x1x3_S32768x1x3_S32768x1x3_S32768x16x3_d1⟩,
        ⟨S32768x8x3, concatenate S32768x8x3 1 [
          ⟨S32768x1x3, (VB (Proc.devRef .tc main_v110) : (⟨S32768x1x3, .f32⟩ : BufTy).Contents (Elt F))⟩,
          ⟨S32768x1x3, (VB (Proc.devRef .tc main_v111) : (⟨S32768x1x3, .f32⟩ : BufTy).Contents (Elt F))⟩,
          ⟨S32768x1x3, (VB (Proc.devRef .tc main_v112) : (⟨S32768x1x3, .f32⟩ : BufTy).Contents (Elt F))⟩,
          ⟨S32768x1x3, (VB (Proc.devRef .tc main_v113) : (⟨S32768x1x3, .f32⟩ : BufTy).Contents (Elt F))⟩,
          ⟨S32768x1x3, (VB (Proc.devRef .tc main_v114) : (⟨S32768x1x3, .f32⟩ : BufTy).Contents (Elt F))⟩,
          ⟨S32768x1x3, (VB (Proc.devRef .tc main_v115) : (⟨S32768x1x3, .f32⟩ : BufTy).Contents (Elt F))⟩,
          ⟨S32768x1x3, (VB (Proc.devRef .tc main_v116) : (⟨S32768x1x3, .f32⟩ : BufTy).Contents (Elt F))⟩,
          ⟨S32768x1x3, (VB (Proc.devRef .tc main_v117) : (⟨S32768x1x3, .f32⟩ : BufTy).Contents (Elt F))⟩]
          concatenates_S32768x1x3_S32768x1x3_S32768x1x3_S32768x1x3_S32768x1x3_S32768x1x3_S32768x1x3_S32768x1x3_S32768x8x3_d1⟩]
        concatenates_S32768x16x3_S32768x8x3_S32768x24x3_d1 := by
  simp only [ops, List.drop_succ_cons, List.drop_zero]
  rfl

variable (m : (ℓ : Loc nD τ sig) → Buf (Elt F) ℓ) (c : Dev nD)

/-! After the first 146 operations each per-joint buffer holds its stage of the arguments. -/

set_option maxRecDepth 8192 in
set_option maxHeartbeats 4000000 in
theorem layer0 : after (List.take 146 (ops (F := F))) (launchContents m c) (Proc.devRef .tc main_v94)
    = val_main_v94 (F := F) := by
  simp only [ops, List.take_succ_cons, List.take_zero]
  after_results_simp <;> rfl

set_option maxRecDepth 8192 in
set_option maxHeartbeats 4000000 in
theorem layer1 : after (List.take 146 (ops (F := F))) (launchContents m c) (Proc.devRef .tc main_v95)
    = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer2 : after (List.take 146 (ops (F := F))) (launchContents m c) (Proc.devRef .tc main_v96)
    = val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer3 : after (List.take 146 (ops (F := F))) (launchContents m c) (Proc.devRef .tc main_v97)
    = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer4 : after (List.take 146 (ops (F := F))) (launchContents m c) (Proc.devRef .tc main_v98)
    = val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer5 : after (List.take 146 (ops (F := F))) (launchContents m c) (Proc.devRef .tc main_v99)
    = val_main_v99 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer6 : after (List.take 146 (ops (F := F))) (launchContents m c) (Proc.devRef .tc main_v100)
    = val_main_v100 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer7 : after (List.take 146 (ops (F := F))) (launchContents m c) (Proc.devRef .tc main_v101)
    = val_main_v101 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer8 : after (List.take 146 (ops (F := F))) (launchContents m c) (Proc.devRef .tc main_v102)
    = val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer9 : after (List.take 146 (ops (F := F))) (launchContents m c) (Proc.devRef .tc main_v103)
    = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer10 : after (List.take 146 (ops (F := F))) (launchContents m c) (Proc.devRef .tc main_v104)
    = val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer11 : after (List.take 146 (ops (F := F))) (launchContents m c) (Proc.devRef .tc main_v105)
    = val_main_v105 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer12 : after (List.take 146 (ops (F := F))) (launchContents m c) (Proc.devRef .tc main_v106)
    = val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer13 : after (List.take 146 (ops (F := F))) (launchContents m c) (Proc.devRef .tc main_v107)
    = val_main_v107 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer14 : after (List.take 146 (ops (F := F))) (launchContents m c) (Proc.devRef .tc main_v108)
    = val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer15 : after (List.take 146 (ops (F := F))) (launchContents m c) (Proc.devRef .tc main_v109)
    = val_main_v109 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer16 : after (List.take 146 (ops (F := F))) (launchContents m c) (Proc.devRef .tc main_v110)
    = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer17 : after (List.take 146 (ops (F := F))) (launchContents m c) (Proc.devRef .tc main_v111)
    = val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer18 : after (List.take 146 (ops (F := F))) (launchContents m c) (Proc.devRef .tc main_v112)
    = val_main_v112 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer19 : after (List.take 146 (ops (F := F))) (launchContents m c) (Proc.devRef .tc main_v113)
    = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer20 : after (List.take 146 (ops (F := F))) (launchContents m c) (Proc.devRef .tc main_v114)
    = val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer21 : after (List.take 146 (ops (F := F))) (launchContents m c) (Proc.devRef .tc main_v115)
    = val_main_v115 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer22 : after (List.take 146 (ops (F := F))) (launchContents m c) (Proc.devRef .tc main_v116)
    = val_main_v116 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
set_option maxHeartbeats 4000000 in
theorem layer23 : after (List.take 146 (ops (F := F))) (launchContents m c) (Proc.devRef .tc main_v117)
    = val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops, List.take_succ_cons, List.take_zero]
  after_results_simp <;> rfl

set_option maxRecDepth 8192 in
/-- So the whole line leaves the positions buffer at the positions stage. -/
theorem joints_after : after (ops (F := F)) (launchContents m c) (Proc.devRef .tc main_v120)
    = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (congrArg (fun l => after l (launchContents m c) (Proc.devRef .tc main_v120)) (List.take_append_drop 146 (ops (F := F))).symm).trans ?_
  refine (congrFun (after_append _ _ _) _).trans ?_
  refine (stack_after _).trans ?_
  rw [layer0 m c, layer1 m c, layer2 m c, layer3 m c, layer4 m c, layer5 m c, layer6 m c, layer7 m c, layer8 m c, layer9 m c, layer10 m c, layer11 m c, layer12 m c, layer13 m c, layer14 m c, layer15 m c, layer16 m c, layer17 m c, layer18 m c, layer19 m c, layer20 m c, layer21 m c, layer22 m c, layer23 m c]
  rfl

variable (ρ : Dev nD → PrngReg)

set_option maxRecDepth 8192 in
set_option maxHeartbeats 8000000 in
/-- Every weakly fair execution of the reference ends with its three results at their stages of the arguments and the
    arguments unchanged. -/
theorem run : θ_run defs (onTc (τ := τ) (main (F := F))) ⟨m, fun _ => 0, ρ⟩ fun r => ∀ c : Dev nD,
      r.2.mem ((c.tc : Thread nD τ).loc main_v120) = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v23) = val_main_v23 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v18) = val_main_v18 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v120).trans (joints_after m c),
      (h c main_v23).trans (by after_results_simp <;> rfl),
      (h c main_v18).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Run

end
-- ==== Proof.lean ====
/-
  A pose decoder: a batch of 32768 latent rows goes through two dense layers (`z·W1 + b1`, the activation
  `h · logistic h`, `·W2 + b2`); each row of 92 outputs is read as 23 bones of 4 numbers — a vector that is normalised
  (divided by the larger of its norm and a tiny constant) and a log-length that goes through softplus — whose products
  are the joints' offsets; joint positions are the sums of offsets along a fixed tree of 24 joints.  The three results are
  the positions, the offsets and the lengths.

  The kernel does this 2048 rows at a time, the reference for the whole batch at once.  On extended reals the two agree
  entry by entry: both matrix products are the same sums, the kernel's `logistic` is the reference's
  `1 / (1 + exp (-h))`, a sum of three squares from zero is the same sum, both softplus forms take the same branch
  (a number never differs from itself) and `0 - y = -y`, and the tree walk adds the same offsets in the same order.  Each
  side is shown equal to one specification (Proof/Spec.lean); no law needing finiteness is used, so the precondition is
  never opened.  The idealized kernel is the kernel's own text read on extended reals (no rewrite was applied), so the
  idealization claim is trivial.
-/
import proofs.«106758_j18236431139314_1_alg».proof.Defs
import proofs.«106758_j18236431139314_1_alg».proof.Proof.Gen.Kernel
import proofs.«106758_j18236431139314_1_alg».proof.Proof.Gen.Kernel.Skeleton
import proofs.«106758_j18236431139314_1_alg».proof.Proof.Gen.Kernel.Launch
import proofs.«106758_j18236431139314_1_alg».proof.Proof.Gen.Kernel.Points
import proofs.«106758_j18236431139314_1_alg».proof.Proof.Gen.Kernel.Frame
import proofs.«106758_j18236431139314_1_alg».proof.Proof.Gen.KernelIdeal
import proofs.«106758_j18236431139314_1_alg».proof.Proof.Gen.KernelIdeal.Skeleton
import proofs.«106758_j18236431139314_1_alg».proof.Proof.Gen.KernelIdeal.Launch
import proofs.«106758_j18236431139314_1_alg».proof.Proof.Gen.KernelIdeal.Points
import proofs.«106758_j18236431139314_1_alg».proof.Proof.Gen.KernelIdeal.Frame
import proofs.«106758_j18236431139314_1_alg».proof.Proof.Gen.ReferenceIdeal
import proofs.«106758_j18236431139314_1_alg».proof.Proof.Gen.Pre_finite_inputs
import proofs.«106758_j18236431139314_1_alg».proof.Proof.KernelArrays
import proofs.«106758_j18236431139314_1_alg».proof.Proof.ReferenceHead
import proofs.«106758_j18236431139314_1_alg».proof.Proof.ReferenceRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its run with the three results dropped. -/
theorem frame_ri : Cert.frame_ReferenceIdeal := fun m ρ _ =>
  (θ_run Cert.ReferenceIdeal.defs _ _).mono (fun _ h c => (h c).2.2.2) (Cert.ReferenceIdeal.Run.run (F := Ideal) m ρ)

theorem preserves : Cert.preserves_Kernel_KernelIdeal := trivial

/-- Both runs end with the positions, offsets and lengths of the specification at the (agreeing) argument arrays. -/
theorem algebraic : Cert.algebraic_KernelIdeal_ReferenceIdeal := by
  intro m ρ m' ρ' _ hagree
  refine ⟨fun c => Spec.joints (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Spec.offsets (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Spec.lengths (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ?_) (Cert.ReferenceIdeal.Run.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Body.joints_eq, a0, a1, a2, a3, a4]
  · rw [Cert.ReferenceIdeal.Body.offsets_eq, a0, a1, a2, a3, a4]
  · rw [Cert.ReferenceIdeal.Body.lengths_eq, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
